-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x64 : Shape := ⟨3, ![1024, 128, 64]⟩
abbrev S1024x128x128 : Shape := ⟨3, ![1024, 128, 128]⟩
abbrev S1024x128x1 : Shape := ⟨3, ![1024, 128, 1]⟩
abbrev S256x64 : Shape := ⟨2, ![256, 64]⟩
abbrev S256 : Shape := ⟨1, ![256]⟩
abbrev S256x256 : Shape := ⟨2, ![256, 256]⟩
abbrev S256x257 : Shape := ⟨2, ![256, 257]⟩
abbrev S1x256 : Shape := ⟨2, ![1, 256]⟩
abbrev S1 : Shape := ⟨1, ![1]⟩
abbrev S_ : Shape := ⟨0, ![]⟩

class Facts : Prop where
  bcast_S_S1024x128x64 : S_.BroadcastsInDim S1024x128x64 (![] : Fin 0 → Fin S1024x128x64.rank)
  reducesTo_S1024x128x64_S_d0_1_2 : S1024x128x64.ReducesTo [0, 1, 2] S_
  h_S_ : 0 < S_.numel
  bcast_S_S1024x128x128 : S_.BroadcastsInDim S1024x128x128 (![] : Fin 0 → Fin S1024x128x128.rank)
  reducesTo_S1024x128x128_S_d0_1_2 : S1024x128x128.ReducesTo [0, 1, 2] S_
  bcast_S_S1024x128x1 : S_.BroadcastsInDim S1024x128x1 (![] : Fin 0 → Fin S1024x128x1.rank)
  reducesTo_S1024x128x1_S_d0_1_2 : S1024x128x1.ReducesTo [0, 1, 2] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x257 : S_.BroadcastsInDim S256x257 (![] : Fin 0 → Fin S256x257.rank)
  reducesTo_S256x257_S_d0_1 : S256x257.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S256 .f32) (main_arg15 : FVec F S256x256 .f32) (main_arg16 : FVec F S256 .f32) (main_arg17 : FVec F S1x256 .f32) (main_arg18 : FVec F S1 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S1x256 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S256x257 .f32) (main_arg12 : FVec F S256 .f32) (main_arg13 : FVec F S256x256 .f32) (main_arg14 : FVec F S256 .f32) (main_arg15 : FVec F S256x256 .f32) (main_arg16 : FVec F S256 .f32) (main_arg17 : FVec F S1x256 .f32) (main_arg18 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x257 .f32 := Host.absf main_arg11
  let main_cst_20 : FVec F S_ .f32 := constant S_ .f32 0x7F800000#32
  let main_v55 : FVec F S256x257 .f32 := broadcastInDim S256x257 ![] bcast_S_S256x257 main_cst_20
  let main_v56 : IVec S256x257 1 := cmpf .olt main_v54 main_v55
  let main_c_21 : IVec S_ 1 := constantI S_ 1 1#1
  let main_v57 : IVec S_ 1 := (fun x v => Host.reduce IntOp.andi x v reducesTo_S256x257_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x257 .f32) (main_arg12 : FVec F S256 .f32) (main_arg13 : FVec F S256x256 .f32) (main_arg14 : FVec F S256 .f32) (main_arg15 : FVec F S256x256 .f32) (main_arg16 : FVec F S256 .f32) (main_arg17 : FVec F S1x256 .f32) (main_arg18 : FVec F S1 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x257 .f32) (main_arg12 : FVec F S256 .f32) (main_arg13 : FVec F S256x256 .f32) (main_arg14 : FVec F S256 .f32) (main_arg15 : FVec F S256x256 .f32) (main_arg16 : FVec F S256 .f32) (main_arg17 : FVec F S1x256 .f32) (main_arg18 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S1024x128x64 .f32) (main_arg1 : FVec F S1024x128x128 .f32) (main_arg2 : FVec F S1024x128x1 .f32) (main_arg3 : FVec F S256x64 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x257 .f32) (main_arg12 : FVec F S256 .f32) (main_arg13 : FVec F S256x256 .f32) (main_arg14 : FVec F S256 .f32) (main_arg15 : FVec F S256x256 .f32) (main_arg16 : FVec F S256 .f32) (main_arg17 : FVec F S1x256 .f32) (main_arg18 : FVec F S1 .f32) : IVec S_ 1 :=
  let main_v0 : FVec F S1024x128x64 .f32 := Host.absf main_arg0
  let main_cst : FVec F S_ .f32 := constant S_ .f32 0x7F800000#32
  let main_v1 : FVec F S1024x128x64 .f32 := broadcastInDim S1024x128x64 ![] bcast_S_S1024x128x64 main_cst
  let main_v2 : IVec S1024x128x64 1 := cmpf .olt main_v0 main_v1
  let main_c : IVec S_ 1 := constantI S_ 1 1#1
  let main_v3 : IVec S_ 1 := (fun x v => Host.reduce IntOp.andi x v reducesTo_S1024x128x64_S_d0_1_2 h_S_) main_v2 main_c
  let main_v4 : FVec F S1024x128x128 .f32 := Host.absf main_arg1
  let main_cst_0 : FVec F S_ .f32 := constant S_ .f32 0x7F800000#32
  let main_v5 : FVec F S1024x128x128 .f32 := broadcastInDim S1024x128x128 ![] bcast_S_S1024x128x128 main_cst_0
  let main_v6 : IVec S1024x128x128 1 := cmpf .olt main_v4 main_v5
  let main_c_1 : IVec S_ 1 := constantI S_ 1 1#1
  let main_v7 : IVec S_ 1 := (fun x v => Host.reduce IntOp.andi x v reducesTo_S1024x128x128_S_d0_1_2 h_S_) main_v6 main_c_1
  let main_v8 : IVec S_ 1 := andi main_v3 main_v7
  let main_v9 : FVec F S1024x128x1 .f32 := Host.absf main_arg2
  let main_cst_2 : FVec F S_ .f32 := constant S_ .f32 0x7F800000#32
  let main_v10 : FVec F S1024x128x1 .f32 := broadcastInDim S1024x128x1 ![] bcast_S_S1024x128x1 main_cst_2
  let main_v11 : IVec S1024x128x1 1 := cmpf .olt main_v9 main_v10
  let main_c_3 : IVec S_ 1 := constantI S_ 1 1#1
  let main_v12 : IVec S_ 1 := (fun x v => Host.reduce IntOp.andi x v reducesTo_S1024x128x1_S_d0_1_2 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S1024x128x64 : Shape := ⟨3, ![1024, 128, 64]⟩
abbrev S1024x128x128 : Shape := ⟨3, ![1024, 128, 128]⟩
abbrev S1024x128x1 : Shape := ⟨3, ![1024, 128, 1]⟩
abbrev S256x64 : Shape := ⟨2, ![256, 64]⟩
abbrev S256 : Shape := ⟨1, ![256]⟩
abbrev S256x256 : Shape := ⟨2, ![256, 256]⟩
abbrev S256x257 : Shape := ⟨2, ![256, 257]⟩
abbrev S1x256 : Shape := ⟨2, ![1, 256]⟩
abbrev S1 : Shape := ⟨1, ![1]⟩
abbrev S1024x128 : Shape := ⟨2, ![1024, 128]⟩
abbrev S16x128x64 : Shape := ⟨3, ![16, 128, 64]⟩
abbrev S16x128x128 : Shape := ⟨3, ![16, 128, 128]⟩
abbrev S16x128x1 : Shape := ⟨3, ![16, 128, 1]⟩
abbrev S16x128 : Shape := ⟨2, ![16, 128]⟩
abbrev S2048x64 : Shape := ⟨2, ![2048, 64]⟩
abbrev S64x256 : Shape := ⟨2, ![64, 256]⟩
abbrev S2048x256 : Shape := ⟨2, ![2048, 256]⟩
abbrev S16x128x256 : Shape := ⟨3, ![16, 128, 256]⟩
abbrev S16x128x257 : Shape := ⟨3, ![16, 128, 257]⟩
abbrev S2048x257 : Shape := ⟨2, ![2048, 257]⟩
abbrev S257x256 : Shape := ⟨2, ![257, 256]⟩
abbrev S2048 : Shape := ⟨1, ![2048]⟩

abbrev nBuf : Space → Nat
  | .hbm => 30
  | .vmem => 26
  | .smem => 0
  | _ => 0

abbrev bufTy : (tb : Table) → Fin (tcTables nBuf tb) → BufTy
  | .hbm, ⟨0, _⟩ => ⟨S1024x128x64, .f32⟩
  | .hbm, ⟨1, _⟩ => ⟨S1024x128x128, .f32⟩
  | .hbm, ⟨2, _⟩ => ⟨S1024x128x1, .f32⟩
  | .hbm, ⟨3, _⟩ => ⟨S256x64, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x257, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S256x64, .bf16⟩
  | .hbm, ⟨20, _⟩ => ⟨S256x256, .bf16⟩
  | .hbm, ⟨21, _⟩ => ⟨S256x256, .bf16⟩
  | .hbm, ⟨22, _⟩ => ⟨S256x256, .bf16⟩
  | .hbm, ⟨23, _⟩ => ⟨S256x257, .bf16⟩
  | .hbm, ⟨24, _⟩ => ⟨S256x256, .bf16⟩
  | .hbm, ⟨25, _⟩ => ⟨S256x256, .bf16⟩
  | .hbm, ⟨26, _⟩ => ⟨S1x256, .bf16⟩
  | .hbm, ⟨27, _⟩ => ⟨S1024x128, .f32⟩
  | .hbm, ⟨28, _⟩ => ⟨S1024x128x128, .f32⟩
  | .hbm, ⟨29, _⟩ => ⟨S1024x128x1, .f32⟩
  | .local _ .vmem, ⟨0, _⟩ => ⟨S16x128x64, .f32⟩
  | .local _ .vmem, ⟨1, _⟩ => ⟨S16x128x64, .f32⟩
  | .local _ .vmem, ⟨2, _⟩ => ⟨S16x128x128, .f32⟩
  | .local _ .vmem, ⟨3, _⟩ => ⟨S16x128x128, .f32⟩
  | .local _ .vmem, ⟨4, _⟩ => ⟨S16x128x1, .f32⟩
  | .local _ .vmem, ⟨5, _⟩ => ⟨S16x128x1, .f32⟩
  | .local _ .vmem, ⟨6, _⟩ => ⟨S256x64, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S256x257, .bf16⟩
  | .local _ .vmem, ⟨15, _⟩ => ⟨S256, .f32⟩
  | .local _ .vmem, ⟨16, _⟩ => ⟨S256x256, .bf16⟩
  | .local _ .vmem, ⟨17, _⟩ => ⟨S256, .f32⟩
  | .local _ .vmem, ⟨18, _⟩ => ⟨S256x256, .bf16⟩
  | .local _ .vmem, ⟨19, _⟩ => ⟨S256, .f32⟩
  | .local _ .vmem, ⟨20, _⟩ => ⟨S1x256, .bf16⟩
  | .local _ .vmem, ⟨21, _⟩ => ⟨S1, .f32⟩
  | .local _ .vmem, ⟨22, _⟩ => ⟨S16x128, .f32⟩
  | .local _ .vmem, ⟨23, _⟩ => ⟨S16x128, .f32⟩
  | .local _ .vmem, ⟨24, _⟩ => ⟨S16x128x128, .f32⟩
  | .local _ .vmem, ⟨25, _⟩ => ⟨S16x128x128, .f32⟩
  | _, _ => ⟨S1024x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x257 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S16x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bitsLt_bf16_f32 : FTy.bits .bf16 < FTy.bits .f32
  inb_S16x128x64_S16x128x64_0_0_0 : ∀ a, (![0, 0, 0] : Fin 3 → Nat) a + S16x128x64.size a ≤ S16x128x64.size a
  h_S16x128x64 : 0 < S16x128x64.numel
  shapeCasts_S16x128x64_S2048x64 : S16x128x64.ShapeCasts S2048x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  transposes_S256x64_p1_0_S64x256 : S256x64.Transposes [1, 0] S64x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  shapeCasts_S2048x256_S16x128x256 : S2048x256.ShapeCasts S16x128x256
  inb_S16x128x128_S16x128x128_0_0_0 : ∀ a, (![0, 0, 0] : Fin 3 → Nat) a + S16x128x128.size a ≤ S16x128x128.size a
  h_S16x128x128 : 0 < S16x128x128.numel
  reduces_S16x128x128_S16x128 : S16x128x128.Reduces [2] S16x128
  shapeCasts_S16x128_S16x128x1 : S16x128.ShapeCasts S16x128x1
  broadcasts_S16x128x1_S16x128x128 : S16x128x1.Broadcasts S16x128x128
  inb_S16x128x1_S16x128x1_0_0_0 : ∀ a, (![0, 0, 0] : Fin 3 → Nat) a + S16x128x1.size a ≤ S16x128x1.size a
  h_S16x128x1 : 0 < S16x128x1.numel
  concatenates_S16x128x256_S16x128x1_S16x128x257_d2 : Shape.Concatenates [S16x128x256, S16x128x1] S16x128x257 2
  shapeCasts_S16x128x257_S2048x257 : S16x128x257.ShapeCasts S2048x257
  inb_S256x257_S256x257_0_0 : ∀ a, (![0, 0] : Fin 2 → Nat) a + S256x257.size a ≤ S256x257.size a
  h_S256x257 : 0 < S256x257.numel
  shapeCasts_S256x257_S256x257 : S256x257.ShapeCasts S256x257
  transposes_S256x257_p1_0_S257x256 : S256x257.Transposes [1, 0] S257x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256 : S1x256.ShapeCasts S256
  inb_S1_S1_0 : ∀ a, (![0] : Fin 1 → Nat) a + S1.size a ≤ S1.size a
  h_S1 : 0 < S1.numel
  inpos_S1_p0 : ∀ a, (![0] : Fin 1 → Nat) a < S1.size a
  reduces_S2048x256_S2048 : S2048x256.Reduces [1] S2048
  shapeCasts_S2048_S16x128 : S2048.ShapeCasts S16x128
  inb_S16x128_S16x128_0_0 : ∀ a, (![0, 0] : Fin 2 → Nat) a + S16x128.size a ≤ S16x128.size a
  h_S16x128 : 0 < S16x128.numel
  bcast_S1024x128_S1024x128x1_0_1 : S1024x128.BroadcastsInDim S1024x128x1 (![0, 1] : Fin 2 → Fin S1024x128x1.rank)
  dot_S2048x64_S64x256_S2048x256_1_0_0_1_n_n_wf : DotDims.WF S2048x64 S64x256 S2048x256 [1] [0] [0] [1] [] []
  dot_S2048x256_S256x256_S2048x256_1_0_0_1_n_n_wf : DotDims.WF S2048x256 S256x256 S2048x256 [1] [0] [0] [1] [] []
  dot_S16x128x256_S16x128x256_S16x128x128_2_2_1_1_0_0_wf : DotDims.WF S16x128x256 S16x128x256 S16x128x128 [2] [2] [1] [1] [0] [0]
  dot_S16x128x128_S16x128x256_S16x128x256_2_1_1_2_0_0_wf : DotDims.WF S16x128x128 S16x128x256 S16x128x256 [2] [1] [1] [2] [0] [0]
  dot_S2048x257_S257x256_S2048x256_1_0_0_1_n_n_wf : DotDims.WF S2048x257 S257x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x64.size a ≤ S1024x128x64.size a
  hwx0_0 : ∀ i : grid0.Coords, EltTy.bits .f32 = 32 ∨ (Rect.block (s := S1024x128x64) S16x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S1024x128x128.size a
  hwx0_1 : ∀ i : grid0.Coords, EltTy.bits .f32 = 32 ∨ (Rect.block (s := S1024x128x128) S16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x1.size a ≤ S1024x128x1.size a
  hwx0_2 : ∀ i : grid0.Coords, EltTy.bits .f32 = 32 ∨ (Rect.block (s := S1024x128x1) S16x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x257.size a ≤ S256x257.size a
  hwx0_11 : ∀ i : grid0.Coords, EltTy.bits .bf16 = 32 ∨ (Rect.block (s := S256x257) S256x257.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .bf16 = 32 ∨ (Rect.block (s := S1x256) S1x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1.size a ≤ S1.size a
  hwx0_18 : ∀ i : grid0.Coords, EltTy.bits .f32 = 32 ∨ (Rect.block (s := S1) S1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S16x128.size a ≤ S1024x128.size a
  hwx0_19 : ∀ i : grid0.Coords, EltTy.bits .f32 = 32 ∨ (Rect.block (s := S1024x128) S16x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S16x128x128.size a ≤ S1024x128x128.size a
  hwx0_20 : ∀ i : grid0.Coords, EltTy.bits .f32 = 32 ∨ (Rect.block (s := S1024x128x128) S16x128x128.size (cc0_transform_20 i) (hinb0_20 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S16x128x256_S16x128x256_S16x128x128_2_2_1_1_0_0 : DotDims S16x128x256 S16x128x256 S16x128x128 where
  lhsContracting := [2]
  rhsContracting := [2]
  lhsNonContracting := [1]
  rhsNonContracting := [1]
  lhsBatch := [0]
  rhsBatch := [0]
  wf := dot_S16x128x256_S16x128x256_S16x128x128_2_2_1_1_0_0_wf
def dot_S16x128x128_S16x128x256_S16x128x256_2_1_1_2_0_0 : DotDims S16x128x128 S16x128x256 S16x128x256 where
  lhsContracting := [2]
  rhsContracting := [1]
  lhsNonContracting := [1]
  rhsNonContracting := [2]
  lhsBatch := [0]
  rhsBatch := [0]
  wf := dot_S16x128x128_S16x128x256_S16x128x256_2_1_1_2_0_0_wf
def dot_S2048x257_S257x256_S2048x256_1_0_0_1_n_n : DotDims S2048x257 S257x256 S2048x256 where
  lhsContracting := [1]
  rhsContracting := [0]
  lhsNonContracting := [0]
  rhsNonContracting := [1]
  lhsBatch := []
  rhsBatch := []
  wf := dot_S2048x257_S257x256_S2048x256_1_0_0_1_n_n_wf

abbrev win0_0 : Pipeline.Window sig grid0 :=
  Pipeline.Window.ofSpec (Memref.whole main_arg0) S16x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S256x257.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v8_0) S16x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v8_1) S16x128x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S1024x128x64 : Shape := ⟨3, ![1024, 128, 64]⟩
abbrev S1024x128x128 : Shape := ⟨3, ![1024, 128, 128]⟩
abbrev S1024x128x1 : Shape := ⟨3, ![1024, 128, 1]⟩
abbrev S256x64 : Shape := ⟨2, ![256, 64]⟩
abbrev S256 : Shape := ⟨1, ![256]⟩
abbrev S256x256 : Shape := ⟨2, ![256, 256]⟩
abbrev S256x257 : Shape := ⟨2, ![256, 257]⟩
abbrev S1x256 : Shape := ⟨2, ![1, 256]⟩
abbrev S1 : Shape := ⟨1, ![1]⟩
abbrev S1024x128x256 : Shape := ⟨3, ![1024, 128, 256]⟩
abbrev S1x1x256 : Shape := ⟨3, ![1, 1, 256]⟩
abbrev S_ : Shape := ⟨0, ![]⟩
abbrev S1024x128 : Shape := ⟨2, ![1024, 128]⟩
abbrev S1024x128x257 : Shape := ⟨3, ![1024, 128, 257]⟩
abbrev S1x1x1 : Shape := ⟨3, ![1, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S1024x128x64, .f32⟩
  | .hbm, ⟨1, _⟩ => ⟨S1024x128x128, .f32⟩
  | .hbm, ⟨2, _⟩ => ⟨S1024x128x1, .f32⟩
  | .hbm, ⟨3, _⟩ => ⟨S256x64, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x257, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S1024x128x256, .f32⟩
  | .hbm, ⟨20, _⟩ => ⟨S1x1x256, .f32⟩
  | .hbm, ⟨21, _⟩ => ⟨S1024x128x256, .f32⟩
  | .hbm, ⟨22, _⟩ => ⟨S1024x128x256, .f32⟩
  | .hbm, ⟨23, _⟩ => ⟨S_, .f32⟩
  | .hbm, ⟨24, _⟩ => ⟨S1024x128x256, .f32⟩
  | .hbm, ⟨25, _⟩ => ⟨S1024x128x256, .f32⟩
  | .hbm, ⟨26, _⟩ => ⟨S1024x128x256, .f32⟩
  | .hbm, ⟨27, _⟩ => ⟨S1x1x256, .f32⟩
  | .hbm, ⟨28, _⟩ => ⟨S1024x128x256, .f32⟩
  | .hbm, ⟨29, _⟩ => ⟨S1024x128x256, .f32⟩
  | .hbm, ⟨30, _⟩ => ⟨S_, .f32⟩
  | .hbm, ⟨31, _⟩ => ⟨S1024x128x256, .f32⟩
  | .hbm, ⟨32, _⟩ => ⟨S1024x128x256, .f32⟩
  | .hbm, ⟨33, _⟩ => ⟨S1024x128x256, .f32⟩
  | .hbm, ⟨34, _⟩ => ⟨S1x1x256, .f32⟩
  | .hbm, ⟨35, _⟩ => ⟨S1024x128x256, .f32⟩
  | .hbm, ⟨36, _⟩ => ⟨S1024x128x256, .f32⟩
  | .hbm, ⟨37, _⟩ => ⟨S_, .f32⟩
  | .hbm, ⟨38, _⟩ => ⟨S1024x128x256, .f32⟩
  | .hbm, ⟨39, _⟩ => ⟨S1024x128x256, .f32⟩
  | .hbm, ⟨40, _⟩ => ⟨S1024x128x256, .f32⟩
  | .hbm, ⟨41, _⟩ => ⟨S1x1x256, .f32⟩
  | .hbm, ⟨42, _⟩ => ⟨S1024x128x256, .f32⟩
  | .hbm, ⟨43, _⟩ => ⟨S1024x128x256, .f32⟩
  | .hbm, ⟨44, _⟩ => ⟨S_, .f32⟩
  | .hbm, ⟨45, _⟩ => ⟨S1024x128x256, .f32⟩
  | .hbm, ⟨46, _⟩ => ⟨S1024x128x256, .f32⟩
  | .hbm, ⟨47, _⟩ => ⟨S1024x128x128, .f32⟩
  | .hbm, ⟨48, _⟩ => ⟨S1024x128x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1024x128x128, .f32⟩
  | .hbm, ⟨53, _⟩ => ⟨S1024x128x128, .f32⟩
  | .hbm, ⟨54, _⟩ => ⟨S_, .f32⟩
  | .hbm, ⟨55, _⟩ => ⟨S1024x128x128, .f32⟩
  | .hbm, ⟨56, _⟩ => ⟨S1024x128x128, .f32⟩
  | .hbm, ⟨57, _⟩ => ⟨S_, .f32⟩
  | .hbm, ⟨58, _⟩ => ⟨S1024x128x128, .f32⟩
  | .hbm, ⟨59, _⟩ => ⟨S1024x128x128, .f32⟩
  | .hbm, ⟨60, _⟩ => ⟨S_, .f32⟩
  | .hbm, ⟨61, _⟩ => ⟨S1024x128x128, .f32⟩
  | .hbm, ⟨62, _⟩ => ⟨S1024x128x128, .f32⟩
  | .hbm, ⟨63, _⟩ => ⟨S1024x128x128, .f32⟩
  | .hbm, ⟨64, _⟩ => ⟨S_, .f32⟩
  | .hbm, ⟨65, _⟩ => ⟨S1024x128, .f32⟩
  | .hbm, ⟨66, _⟩ => ⟨S_, .f32⟩
  | .hbm, ⟨67, _⟩ => ⟨S1024x128, .f32⟩
  | .hbm, ⟨68, _⟩ => ⟨S1024x128, .f32⟩
  | .hbm, ⟨69, _⟩ => ⟨S1024x128x1, .f32⟩
  | .hbm, ⟨70, _⟩ => ⟨S1024x128x128, .f32⟩
  | .hbm, ⟨71, _⟩ => ⟨S1024x128x128, .f32⟩
  | .hbm, ⟨72, _⟩ => ⟨S1024x128x128, .f32⟩
  | .hbm, ⟨73, _⟩ => ⟨S_, .f32⟩
  | .hbm, ⟨74, _⟩ => ⟨S1024x128, .f32⟩
  | .hbm, ⟨75, _⟩ => ⟨S1024x128x1, .f32⟩
  | .hbm, ⟨76, _⟩ => ⟨S1024x128x128, .f32⟩
  | .hbm, ⟨77, _⟩ => ⟨S1024x128x128, .f32⟩
  | .hbm, ⟨78, _⟩ => ⟨S1024x128x256, .f32⟩
  | .hbm, ⟨79, _⟩ => ⟨S1024x128x257, .f32⟩
  | .hbm, ⟨80, _⟩ => ⟨S1024x128x256, .f32⟩
  | .hbm, ⟨81, _⟩ => ⟨S1x1x256, .f32⟩
  | .hbm, ⟨82, _⟩ => ⟨S1024x128x256, .f32⟩
  | .hbm, ⟨83, _⟩ => ⟨S1024x128x256, .f32⟩
  | .hbm, ⟨84, _⟩ => ⟨S_, .f32⟩
  | .hbm, ⟨85, _⟩ => ⟨S1024x128x256, .f32⟩
  | .hbm, ⟨86, _⟩ => ⟨S1024x128x256, .f32⟩
  | .hbm, ⟨87, _⟩ => ⟨S1024x128x256, .f32⟩
  | .hbm, ⟨88, _⟩ => ⟨S1x1x256, .f32⟩
  | .hbm, ⟨89, _⟩ => ⟨S1024x128x256, .f32⟩
  | .hbm, ⟨90, _⟩ => ⟨S1024x128x256, .f32⟩
  | .hbm, ⟨91, _⟩ => ⟨S_, .f32⟩
  | .hbm, ⟨92, _⟩ => ⟨S1024x128x256, .f32⟩
  | .hbm, ⟨93, _⟩ => ⟨S1024x128x256, .f32⟩
  | .hbm, ⟨94, _⟩ => ⟨S1024x128x256, .f32⟩
  | .hbm, ⟨95, _⟩ => ⟨S1x1x256, .f32⟩
  | .hbm, ⟨96, _⟩ => ⟨S1024x128x256, .f32⟩
  | .hbm, ⟨97, _⟩ => ⟨S1024x128x256, .f32⟩
  | .hbm, ⟨98, _⟩ => ⟨S_, .f32⟩
  | .hbm, ⟨99, _⟩ => ⟨S1024x128x256, .f32⟩
  | .hbm, ⟨100, _⟩ => ⟨S1024x128x256, .f32⟩
  | .hbm, ⟨101, _⟩ => ⟨S1024x128x1, .f32⟩
  | .hbm, ⟨102, _⟩ => ⟨S1x1x1, .f32⟩
  | .hbm, ⟨103, _⟩ => ⟨S1024x128x1, .f32⟩
  | .hbm, ⟨104, _⟩ => ⟨S1024x128x1, .f32⟩
  | _, _ => ⟨S1024x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call2_cst : Ref sig .tc := ⟨.hbm, 37, rfl⟩
abbrev main_call2_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call3_cst : Ref sig .tc := ⟨.hbm, 44, rfl⟩
abbrev main_call3_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst : Ref sig .tc := ⟨.hbm, 49, rfl⟩
abbrev main_cst_0 : Ref sig .tc := ⟨.hbm, 50, rfl⟩
abbrev main_call4_v0 : Ref sig .tc := ⟨.hbm, 51, rfl⟩
abbrev main_call4_v1 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_v22 : Ref sig .tc := ⟨.hbm, 56, rfl⟩
abbrev main_cst_1 : Ref sig .tc := ⟨.hbm, 57, rfl⟩
abbrev main_v23 : Ref sig .tc := ⟨.hbm, 58, rfl⟩
abbrev main_v24 : Ref sig .tc := ⟨.hbm, 59, rfl⟩
abbrev main_cst_2 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_3 : Ref sig .tc := ⟨.hbm, 64, rfl⟩
abbrev main_v28 : Ref sig .tc := ⟨.hbm, 65, rfl⟩
abbrev main_cst_4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_5 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_call5_cst : Ref sig .tc := ⟨.hbm, 84, rfl⟩
abbrev main_call5_v0 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_call6_cst : Ref sig .tc := ⟨.hbm, 91, rfl⟩
abbrev main_call6_v0 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call7_cst : Ref sig .tc := ⟨.hbm, 98, rfl⟩
abbrev main_call7_v0 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S1024x128x256_0_1_2 : S1x1x256.BroadcastsInDim S1024x128x256 (![0, 1, 2] : Fin 3 → Fin S1024x128x256.rank)
  bcast_S_S1024x128x256 : S_.BroadcastsInDim S1024x128x256 (![] : Fin 0 → Fin S1024x128x256.rank)
  bcast_S_S1024x128x128 : S_.BroadcastsInDim S1024x128x128 (![] : Fin 0 → Fin S1024x128x128.rank)
  reducesTo_S1024x128x128_S1024x128_d2 : S1024x128x128.ReducesTo [2] S1024x128
  h_S_ : 0 < S_.numel
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  bcast_S1024x128x1_S1024x128x128_0_1_2 : S1024x128x1.BroadcastsInDim S1024x128x128 (![0, 1, 2] : Fin 3 → Fin S1024x128x128.rank)
  concatenates_S1024x128x256_S1024x128x1_S1024x128x257_d2 : Shape.Concatenates [S1024x128x256, S1024x128x1] S1024x128x257 2
  bcast_S1_S1x1x1_2 : S1.BroadcastsInDim S1x1x1 (![2] : Fin 1 → Fin S1x1x1.rank)
  bcast_S1x1x1_S1024x128x1_0_1_2 : S1x1x1.BroadcastsInDim S1024x128x1 (![0, 1, 2] : Fin 3 → Fin S1024x128x1.rank)
  dot_S1024x128x64_S256x64_S1024x128x256_2_1_01_0_n_n_wf : DotDims.WF S1024x128x64 S256x64 S1024x128x256 [2] [1] [0, 1] [0] [] []
  dot_S1024x128x256_S256x256_S1024x128x256_2_1_01_0_n_n_wf : DotDims.WF S1024x128x256 S256x256 S1024x128x256 [2] [1] [0, 1] [0] [] []
  dot_S1024x128x256_S1024x128x256_S1024x128x128_2_2_1_1_0_0_wf : DotDims.WF S1024x128x256 S1024x128x256 S1024x128x128 [2] [2] [1] [1] [0] [0]
  dot_S1024x128x128_S1024x128x256_S1024x128x256_2_1_1_2_0_0_wf : DotDims.WF S1024x128x128 S1024x128x256 S1024x128x256 [2] [1] [1] [2] [0] [0]
  dot_S1024x128x257_S256x257_S1024x128x256_2_1_01_0_n_n_wf : DotDims.WF S1024x128x257 S256x257 S1024x128x256 [2] [1] [0, 1] [0] [] []
  dot_S1024x128x256_S1x256_S1024x128x1_2_1_01_0_n_n_wf : DotDims.WF S1024x128x256 S1x256 S1024x128x1 [2] [1] [0, 1] [0] [] []

variable [Facts₀]

def dot_S1024x128x64_S256x64_S1024x128x256_2_1_01_0_n_n : DotDims S1024x128x64 S256x64 S1024x128x256 where
  lhsContracting := [2]
  rhsContracting := [1]
  lhsNonContracting := [0, 1]
  rhsNonContracting := [0]
  lhsBatch := []
  rhsBatch := []
  wf := dot_S1024x128x64_S256x64_S1024x128x256_2_1_01_0_n_n_wf
def dot_S1024x128x256_S256x256_S1024x128x256_2_1_01_0_n_n : DotDims S1024x128x256 S256x256 S1024x128x256 where
  lhsContracting := [2]
  rhsContracting := [1]
  lhsNonContracting := [0, 1]
  rhsNonContracting := [0]
  lhsBatch := []
  rhsBatch := []
  wf := dot_S1024x128x256_S256x256_S1024x128x256_2_1_01_0_n_n_wf
def dot_S1024x128x256_S1024x128x256_S1024x128x128_2_2_1_1_0_0 : DotDims S1024x128x256 S1024x128x256 S1024x128x128 where
  lhsContracting := [2]
  rhsContracting := [2]
  lhsNonContracting := [1]
  rhsNonContracting := [1]
  lhsBatch := [0]
  rhsBatch := [0]
  wf := dot_S1024x128x256_S1024x128x256_S1024x128x128_2_2_1_1_0_0_wf
def dot_S1024x128x128_S1024x128x256_S1024x128x256_2_1_1_2_0_0 : DotDims S1024x128x128 S1024x128x256 S1024x128x256 where
  lhsContracting := [2]
  rhsContracting := [1]
  lhsNonContracting := [1]
  rhsNonContracting := [2]
  lhsBatch := [0]
  rhsBatch := [0]
  wf := dot_S1024x128x128_S1024x128x256_S1024x128x256_2_1_1_2_0_0_wf
def dot_S1024x128x257_S256x257_S1024x128x256_2_1_01_0_n_n : DotDims S1024x128x257 S256x257 S1024x128x256 where
  lhsContracting := [2]
  rhsContracting := [1]
  lhsNonContracting := [0, 1]
  rhsNonContracting := [0]
  lhsBatch := []
  rhsBatch := []
  wf := dot_S1024x128x257_S256x257_S1024x128x256_2_1_01_0_n_n_wf
def dot_S1024x128x256_S1x256_S1024x128x1_2_1_01_0_n_n : DotDims S1024x128x256 S1x256 S1024x128x1 where
  lhsContracting := [2]
  rhsContracting := [1]
  lhsNonContracting := [0, 1]
  rhsNonContracting := [0]
  lhsBatch := []
  rhsBatch := []
  wf := dot_S1024x128x256_S1x256_S1024x128x1_2_1_01_0_n_n_wf

class Facts : Prop extends Facts₀ where

variable [Facts]
-- ==== Proof.RefValue.lean ====
/-
  The reference's run, read back: its two results as the composed operations of its arguments.

  The reference's program is a straight line of 86 whole-array operations; after it, each buffer holds the fold of the
  operations' results over the launch contents.  The logits buffer (written by operation 44, never again) is read off that
  fold directly.  The value buffer is read in two stages, cut where the attended values and the actions are joined into
  one array: first the sixty operations up to the attended values, then the remaining twenty-six from the contents the first
  stage leaves, in which the join's two operands are plain buffers.  Each stage is the stage-by-stage term of the
  read-at-an-index module (val_main_v39, then val_main_v59 over it), so the two stages compose to val_main_v59.
-/
import proofs.«156557_j56143812493412_2_alg».proof.Proof.RefRun
import proofs.«156557_j56143812493412_2_alg».proof.Proof.RefRead
import Idealize.ShloMosaic.Lib.StableHlo.Run

noncomputable section

namespace Cert.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first sixty operations: through the attended values. -/
abbrev opsA : List (HloOp τ sig (Elt F)) := (ops (F := F)).take 60
/-- The last twenty-six: the join with the actions, the critic's layers, the output layer. -/
abbrev opsB : List (HloOp τ sig (Elt F)) := (ops (F := F)).drop 60

theorem after_split (V : Valuation τ sig (Elt F)) : after (ops (F := F)) V = after opsB (after opsA V) := by
  rw [← after_append, List.take_append_drop]

variable (m : (ℓ : Loc nD τ sig) → Buf (Elt F) ℓ) (c : Dev nD)

/-! ## The first stage -/

set_option maxRecDepth 65536 in
set_option maxHeartbeats 34400000 in
/-- After the first sixty operations the attended-values buffer holds its stage term. -/
theorem stageA_v39 :
    after (opsA (F := F)) (launchContents m c) (Proc.devRef .tc main_v39) = val_main_v39 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp only [opsA, ops, List.take_succ_cons, List.take_zero]
  after_results_simp
  simp only [TRef.toBuf, TRef.ofBuf, cast_eq]
  simp only [val_main_v0, val_main_v1, val_main_v2, val_main_v3, val_main_call0_cst, val_main_call0_v0, val_main_v4, val_main_v5, val_main_v6, val_main_v7, val_main_v8, val_main_call1_cst, val_main_call1_v0, val_main_v9, val_main_v10, val_main_v11, val_main_v12, val_main_v13, val_main_call2_cst, val_main_call2_v0, val_main_v14, val_main_v15, val_main_v16, val_main_v17, val_main_v18, val_main_call3_cst, val_main_call3_v0, val_main_v19, val_main_v20, val_main_v21, val_main_cst, val_main_cst_0, val_main_call4_v0, val_main_call4_v1, val_main_call4_v2, val_main_call4_v3, val_main_call4_v4, val_main_v22, val_main_cst_1, val_main_v23, val_main_v24, val_main_cst_2, val_main_v25, val_main_v26, val_main_v27, val_main_cst_3, val_main_v28, val_main_cst_4, val_main_v29, val_main_v30, val_main_v31, val_main_v32, val_main_v33, val_main_v34, val_main_cst_5, val_main_v35, val_main_v36, val_main_v37, val_main_v38, val_main_v39]
  first | done | rfl

set_option maxRecDepth 65536 in
set_option maxHeartbeats 34400000 in
/-- The first sixty operations leave argument 2 as launched. -/
theorem stageA_arg2 :
    after (opsA (F := F)) (launchContents m c) (Proc.devRef .tc main_arg2) = m ((c.tc : Thread nD τ).loc main_arg2) := by
  simp only [opsA, ops, List.take_succ_cons, List.take_zero]
  after_results_simp <;> rfl

set_option maxRecDepth 65536 in
set_option maxHeartbeats 34400000 in
/-- The first sixty operations leave argument 11 as launched. -/
theorem stageA_arg11 :
    after (opsA (F := F)) (launchContents m c) (Proc.devRef .tc main_arg11) = m ((c.tc : Thread nD τ).loc main_arg11) := by
  simp only [opsA, ops, List.take_succ_cons, List.take_zero]
  after_results_simp <;> rfl

set_option maxRecDepth 65536 in
set_option maxHeartbeats 34400000 in
/-- The first sixty operations leave argument 12 as launched. -/
theorem stageA_arg12 :
    after (opsA (F := F)) (launchContents m c) (Proc.devRef .tc main_arg12) = m ((c.tc : Thread nD τ).loc main_arg12) := by
  simp only [opsA, ops, List.take_succ_cons, List.take_zero]
  after_results_simp <;> rfl

set_option maxRecDepth 65536 in
set_option maxHeartbeats 34400000 in
/-- The first sixty operations leave argument 13 as launched. -/
theorem stageA_arg13 :
    after (opsA (F := F)) (launchContents m c) (Proc.devRef .tc main_arg13) = m ((c.tc : Thread nD τ).loc main_arg13) := by
  simp only [opsA, ops, List.take_succ_cons, List.take_zero]
  after_results_simp <;> rfl

set_option maxRecDepth 65536 in
set_option maxHeartbeats 34400000 in
/-- The first sixty operations leave argument 14 as launched. -/
theorem stageA_arg14 :
    after (opsA (F := F)) (launchContents m c) (Proc.devRef .tc main_arg14) = m ((c.tc : Thread nD τ).loc main_arg14) := by
  simp only [opsA, ops, List.take_succ_cons, List.take_zero]
  after_results_simp <;> rfl

set_option maxRecDepth 65536 in
set_option maxHeartbeats 34400000 in
/-- The first sixty operations leave argument 15 as launched. -/
theorem stageA_arg15 :
    after (opsA (F := F)) (launchContents m c) (Proc.devRef .tc main_arg15) = m ((c.tc : Thread nD τ).loc main_arg15) := by
  simp only [opsA, ops, List.take_succ_cons, List.take_zero]
  after_results_simp <;> rfl

set_option maxRecDepth 65536 in
set_option maxHeartbeats 34400000 in
/-- The first sixty operations leave argument 16 as launched. -/
theorem stageA_arg16 :
    after (opsA (F := F)) (launchContents m c) (Proc.devRef .tc main_arg16) = m ((c.tc : Thread nD τ).loc main_arg16) := by
  simp only [opsA, ops, List.take_succ_cons, List.take_zero]
  after_results_simp <;> rfl

set_option maxRecDepth 65536 in
set_option maxHeartbeats 34400000 in
/-- The first sixty operations leave argument 17 as launched. -/
theorem stageA_arg17 :
    after (opsA (F := F)) (launchContents m c) (Proc.devRef .tc main_arg17) = m ((c.tc : Thread nD τ).loc main_arg17) := by
  simp only [opsA, ops, List.take_succ_cons, List.take_zero]
  after_results_simp <;> rfl

set_option maxRecDepth 65536 in
set_option maxHeartbeats 34400000 in
/-- The first sixty operations leave argument 18 as launched. -/
theorem stageA_arg18 :
    after (opsA (F := F)) (launchContents m c) (Proc.devRef .tc main_arg18) = m ((c.tc : Thread nD τ).loc main_arg18) := by
  simp only [opsA, ops, List.take_succ_cons, List.take_zero]
  after_results_simp <;> rfl

/-! ## The two results -/

set_option maxRecDepth 65536 in
set_option maxHeartbeats 34400000 in
/-- After the whole program the value buffer holds its stage term. -/
theorem result_v59 :
    after (ops (F := F)) (launchContents m c) (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [after_split]
  have h39 := stageA_v39 m c
  have h2 := stageA_arg2 m c
  have h11 := stageA_arg11 m c
  have h12 := stageA_arg12 m c
  have h13 := stageA_arg13 m c
  have h14 := stageA_arg14 m c
  have h15 := stageA_arg15 m c
  have h16 := stageA_arg16 m c
  have h17 := stageA_arg17 m c
  have h18 := stageA_arg18 m c
  generalize after (opsA (F := F)) (launchContents m c) = VA at h39 h2 h11 h12 h13 h14 h15 h16 h17 h18 ⊢
  simp only [opsB, ops, List.drop_succ_cons, List.drop_zero]
  after_results_simp
  simp only [TRef.toBuf, TRef.ofBuf, cast_eq]
  rw [h39, h2]
  simp only [h11, h12, h13, h14, h15, h16, h17, h18]
  simp only [val_main_v40, val_main_v41, val_main_v42, val_main_v43, val_main_v44, val_main_call5_cst, val_main_call5_v0, val_main_v45, val_main_v46, val_main_v47, val_main_v48, val_main_v49, val_main_call6_cst, val_main_call6_v0, val_main_v50, val_main_v51, val_main_v52, val_main_v53, val_main_v54, val_main_call7_cst, val_main_call7_v0, val_main_v55, val_main_v56, val_main_v57, val_main_v58, val_main_v59]
  first | done | rfl

set_option maxRecDepth 65536 in
set_option maxHeartbeats 34400000 in
/-- After the whole program the logits buffer holds its stage term. -/
theorem result_v27 :
    after (ops (F := F)) (launchContents m c) (Proc.devRef .tc main_v27) = val_main_v27 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) := by
  after_results_simp
  simp only [TRef.toBuf, TRef.ofBuf, cast_eq]
  simp only [val_main_v0, val_main_v1, val_main_v2, val_main_v3, val_main_call0_cst, val_main_call0_v0, val_main_v4, val_main_v5, val_main_v6, val_main_v7, val_main_v8, val_main_call1_cst, val_main_call1_v0, val_main_v9, val_main_v10, val_main_v11, val_main_v12, val_main_v13, val_main_call2_cst, val_main_call2_v0, val_main_v14, val_main_v15, val_main_v16, val_main_v17, val_main_v18, val_main_call3_cst, val_main_call3_v0, val_main_v19, val_main_v20, val_main_v21, val_main_cst, val_main_cst_0, val_main_call4_v0, val_main_call4_v1, val_main_call4_v2, val_main_call4_v3, val_main_call4_v4, val_main_v22, val_main_cst_1, val_main_v23, val_main_v24, val_main_cst_2, val_main_v25, val_main_v26, val_main_v27]
  first | done | rfl

set_option maxRecDepth 65536 in
set_option maxHeartbeats 34400000 in
theorem kept_arg0 :
    after (ops (F := F)) (launchContents m c) (Proc.devRef .tc main_arg0) = m ((c.tc : Thread nD τ).loc main_arg0) := by
  after_results_simp <;> rfl

set_option maxRecDepth 65536 in
set_option maxHeartbeats 34400000 in
theorem kept_arg1 :
    after (ops (F := F)) (launchContents m c) (Proc.devRef .tc main_arg1) = m ((c.tc : Thread nD τ).loc main_arg1) := by
  after_results_simp <;> rfl

set_option maxRecDepth 65536 in
set_option maxHeartbeats 34400000 in
theorem kept_arg2 :
    after (ops (F := F)) (launchContents m c) (Proc.devRef .tc main_arg2) = m ((c.tc : Thread nD τ).loc main_arg2) := by
  after_results_simp <;> rfl

set_option maxRecDepth 65536 in
set_option maxHeartbeats 34400000 in
theorem kept_arg3 :
    after (ops (F := F)) (launchContents m c) (Proc.devRef .tc main_arg3) = m ((c.tc : Thread nD τ).loc main_arg3) := by
  after_results_simp <;> rfl

set_option maxRecDepth 65536 in
set_option maxHeartbeats 34400000 in
theorem kept_arg4 :
    after (ops (F := F)) (launchContents m c) (Proc.devRef .tc main_arg4) = m ((c.tc : Thread nD τ).loc main_arg4) := by
  after_results_simp <;> rfl

set_option maxRecDepth 65536 in
set_option maxHeartbeats 34400000 in
theorem kept_arg5 :
    after (ops (F := F)) (launchContents m c) (Proc.devRef .tc main_arg5) = m ((c.tc : Thread nD τ).loc main_arg5) := by
  after_results_simp <;> rfl

set_option maxRecDepth 65536 in
set_option maxHeartbeats 34400000 in
theorem kept_arg6 :
    after (ops (F := F)) (launchContents m c) (Proc.devRef .tc main_arg6) = m ((c.tc : Thread nD τ).loc main_arg6) := by
  after_results_simp <;> rfl

set_option maxRecDepth 65536 in
set_option maxHeartbeats 34400000 in
theorem kept_arg7 :
    after (ops (F := F)) (launchContents m c) (Proc.devRef .tc main_arg7) = m ((c.tc : Thread nD τ).loc main_arg7) := by
  after_results_simp <;> rfl

set_option maxRecDepth 65536 in
set_option maxHeartbeats 34400000 in
theorem kept_arg8 :
    after (ops (F := F)) (launchContents m c) (Proc.devRef .tc main_arg8) = m ((c.tc : Thread nD τ).loc main_arg8) := by
  after_results_simp <;> rfl

set_option maxRecDepth 65536 in
set_option maxHeartbeats 34400000 in
theorem kept_arg9 :
    after (ops (F := F)) (launchContents m c) (Proc.devRef .tc main_arg9) = m ((c.tc : Thread nD τ).loc main_arg9) := by
  after_results_simp <;> rfl

set_option maxRecDepth 65536 in
set_option maxHeartbeats 34400000 in
theorem kept_arg10 :
    after (ops (F := F)) (launchContents m c) (Proc.devRef .tc main_arg10) = m ((c.tc : Thread nD τ).loc main_arg10) := by
  after_results_simp <;> rfl

set_option maxRecDepth 65536 in
set_option maxHeartbeats 34400000 in
theorem kept_arg11 :
    after (ops (F := F)) (launchContents m c) (Proc.devRef .tc main_arg11) = m ((c.tc : Thread nD τ).loc main_arg11) := by
  after_results_simp <;> rfl

set_option maxRecDepth 65536 in
set_option maxHeartbeats 34400000 in
theorem kept_arg12 :
    after (ops (F := F)) (launchContents m c) (Proc.devRef .tc main_arg12) = m ((c.tc : Thread nD τ).loc main_arg12) := by
  after_results_simp <;> rfl

set_option maxRecDepth 65536 in
set_option maxHeartbeats 34400000 in
theorem kept_arg13 :
    after (ops (F := F)) (launchContents m c) (Proc.devRef .tc main_arg13) = m ((c.tc : Thread nD τ).loc main_arg13) := by
  after_results_simp <;> rfl

set_option maxRecDepth 65536 in
set_option maxHeartbeats 34400000 in
theorem kept_arg14 :
    after (ops (F := F)) (launchContents m c) (Proc.devRef .tc main_arg14) = m ((c.tc : Thread nD τ).loc main_arg14) := by
  after_results_simp <;> rfl

set_option maxRecDepth 65536 in
set_option maxHeartbeats 34400000 in
theorem kept_arg15 :
    after (ops (F := F)) (launchContents m c) (Proc.devRef .tc main_arg15) = m ((c.tc : Thread nD τ).loc main_arg15) := by
  after_results_simp <;> rfl

set_option maxRecDepth 65536 in
set_option maxHeartbeats 34400000 in
theorem kept_arg16 :
    after (ops (F := F)) (launchContents m c) (Proc.devRef .tc main_arg16) = m ((c.tc : Thread nD τ).loc main_arg16) := by
  after_results_simp <;> rfl

set_option maxRecDepth 65536 in
set_option maxHeartbeats 34400000 in
theorem kept_arg17 :
    after (ops (F := F)) (launchContents m c) (Proc.devRef .tc main_arg17) = m ((c.tc : Thread nD τ).loc main_arg17) := by
  after_results_simp <;> rfl

set_option maxRecDepth 65536 in
set_option maxHeartbeats 34400000 in
theorem kept_arg18 :
    after (ops (F := F)) (launchContents m c) (Proc.devRef .tc main_arg18) = m ((c.tc : Thread nD τ).loc main_arg18) := by
  after_results_simp <;> rfl

/-! ## The run -/

/-- Every weakly fair execution of the reference terminates with the value result and the logits result at their stage
    terms of the arguments, the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v27) = val_main_v27 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v59).trans (result_v59 m c), (h c main_v27).trans (result_v27 m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c),
      (h c main_arg13).trans (kept_arg13 m c),
      (h c main_arg14).trans (kept_arg14 m c),
      (h c main_arg15).trans (kept_arg15 m c),
      (h c main_arg16).trans (kept_arg16 m c),
      (h c main_arg17).trans (kept_arg17 m c),
      (h c main_arg18).trans (kept_arg18 m c)⟩)
    (run_seq scopedRefs_eq scopedSems_eq defs main (fun _ => ops) main_eq (fun _ => ops_sub) m ρ)

end Cert.RefValue

end
-- ==== Proof.Spec.lean ====
/-
  What both programs compute, written once as plain mathematics on extended reals.

  The arrays: observations x[b, n, d] (1024 graphs b, 128 nodes n, 64 features d), an adjacency mask m[b, n, j],
  actions a[b, n, 0], and the weights and biases of eight dense layers.  The pipeline:
    * a dense layer followed by a rectifier, out[b, n, h] = max (∑ k, in[b, n, k] · W[h, k] + β[h]) 0: the encoder,
      the value / query / key projections and three layers of the critic;
    * attention logits  l[b, n, j] = min hi (max 0 ((∑ d, q[b, n, d] · k[b, j, d]) · m[b, n, j])) − big · (1 − m[b, n, j]);
    * a softmax over j, written as both programs compute it: subtract the row's maximum (folded from −∞, and joined
      with −∞ once more), exponentiate, divide by the row's sum;
    * the attended values  ∑ j, p[b, n, j] · v[b, j, c];
    * the action appended as a 257th feature;
    * the output layer  ∑ h, c[b, n, h] · W4[0, h] + b4[0].
  Every stage reads graph b of its input only, which is what lets a kernel work on sixteen graphs at a time.
  The five float words the two programs share are kept as words: both sides spell them identically.
-/
import Idealize.ShloMosaic.PureOps.Ideal
import Idealize.ShloMosaic.Lib.ValueIdx

noncomputable section

namespace Cert.Spec

open Idealize.ShloMosaic Idealize.ShloMosaic.ValueIdx

abbrev Arr3 (a b c : ℕ) : Type := (⟨3, ![a, b, c]⟩ : Shape).Idx → EReal
abbrev Arr2 (a b : ℕ) : Type := (⟨2, ![a, b]⟩ : Shape).Idx → EReal
abbrev Arr1 (a : ℕ) : Type := (⟨1, ![a]⟩ : Shape).Idx → EReal

/-- 0.0, 1.0, the clamp's upper bound 9e13, the masking constant 9e15 and −∞, as the programs write them. -/
abbrev zero : EReal := Ideal.ofBits .f32 0x00000000#32
abbrev one : EReal := Ideal.ofBits .f32 0x3F800000#32
abbrev clampHi : EReal := Ideal.ofBits .f32 0x56A3B584#32
abbrev bigNeg : EReal := Ideal.ofBits .f32 0x59FFCB9E#32
abbrev negInf : EReal := Ideal.ofBits .f32 0xFF800000#32

/-- A dense layer with a rectifier, at graph b, node n, output feature h. -/
def denseAt {K : ℕ} (X : Arr3 1024 128 K) (W : Arr2 256 K) (β : Arr1 256) (b : Fin 1024) (n : Fin 128) (h : Fin 256) : EReal :=
  max (∑ k : Fin K, X (ix3 b n k) * W (ix2 h k) + β (ix1 h)) zero

def dense {K : ℕ} (X : Arr3 1024 128 K) (W : Arr2 256 K) (β : Arr1 256) : Arr3 1024 128 256 :=
  fun i => denseAt X W β (i 0) (i 1) (i 2)

theorem dense_apply {K : ℕ} (X : Arr3 1024 128 K) (W : Arr2 256 K) (β : Arr1 256) (b : Fin 1024) (n : Fin 128) (h : Fin 256) :
    dense X W β (ix3 b n h) = max (∑ k : Fin K, X (ix3 b n k) * W (ix2 h k) + β (ix1 h)) zero := rfl

/-- The masked, clamped attention logit of node n towards node j in graph b. -/
def logitsAt (Q Kk : Arr3 1024 128 256) (M : Arr3 1024 128 128) (b : Fin 1024) (n j : Fin 128) : EReal :=
  min clampHi (max zero ((∑ d : Fin 256, Q (ix3 b n d) * Kk (ix3 b j d)) * M (ix3 b n j))) - bigNeg * (one - M (ix3 b n j))

def logits (Q Kk : Arr3 1024 128 256) (M : Arr3 1024 128 128) : Arr3 1024 128 128 :=
  fun i => logitsAt Q Kk M (i 0) (i 1) (i 2)

theorem logits_apply (Q Kk : Arr3 1024 128 256) (M : Arr3 1024 128 128) (b : Fin 1024) (n j : Fin 128) :
    logits Q Kk M (ix3 b n j)
      = min clampHi (max zero ((∑ d : Fin 256, Q (ix3 b n d) * Kk (ix3 b j d)) * M (ix3 b n j))) - bigNeg * (one - M (ix3 b n j)) := rfl

/-- The maximum of row (b, n), folded from −∞ and joined with −∞ once more. -/
def rowMax (A : Arr3 1024 128 128) (b : Fin 1024) (n : Fin 128) : EReal :=
  max negInf ((Finset.univ : Finset (Fin 128)).fold max negInf (fun j => A (ix3 b n j)))

/-- The sum of the shifted exponentials of row (b, n). -/
def rowSum (A : Arr3 1024 128 128) (b : Fin 1024) (n : Fin 128) : EReal :=
  ∑ j : Fin 128, Ideal.exp (A (ix3 b n j) - rowMax A b n)

def softmaxAt (A : Arr3 1024 128 128) (b : Fin 1024) (n j : Fin 128) : EReal :=
  Ideal.div (Ideal.exp (A (ix3 b n j) - rowMax A b n)) (rowSum A b n)

def softmax (A : Arr3 1024 128 128) : Arr3 1024 128 128 :=
  fun i => softmaxAt A (i 0) (i 1) (i 2)

theorem softmax_apply (A : Arr3 1024 128 128) (b : Fin 1024) (n j : Fin 128) :
    softmax A (ix3 b n j) = Ideal.div (Ideal.exp (A (ix3 b n j) - rowMax A b n)) (rowSum A b n) := rfl

/-- The attention-weighted sum of the value vectors. -/
def attendAt (P : Arr3 1024 128 128) (V : Arr3 1024 128 256) (b : Fin 1024) (n : Fin 128) (c : Fin 256) : EReal :=
  ∑ j : Fin 128, P (ix3 b n j) * V (ix3 b j c)

def attend (P : Arr3 1024 128 128) (V : Arr3 1024 128 256) : Arr3 1024 128 256 :=
  fun i => attendAt P V (i 0) (i 1) (i 2)

theorem attend_apply (P : Arr3 1024 128 128) (V : Arr3 1024 128 256) (b : Fin 1024) (n : Fin 128) (c : Fin 256) :
    attend P V (ix3 b n c) = ∑ j : Fin 128, P (ix3 b n j) * V (ix3 b j c) := rfl

/-- The 256 attended features with the action appended as feature 256. -/
def catAt (H : Arr3 1024 128 256) (A : Arr3 1024 128 1) (b : Fin 1024) (n : Fin 128) (k : Fin 257) : EReal :=
  if h : k.val < 256 then H (ix3 b n ⟨k.val, h⟩) else A (ix3 b n (0 : Fin 1))

def cat (H : Arr3 1024 128 256) (A : Arr3 1024 128 1) : Arr3 1024 128 257 :=
  fun i => catAt H A (i 0) (i 1) (i 2)

theorem cat_apply (H : Arr3 1024 128 256) (A : Arr3 1024 128 1) (b : Fin 1024) (n : Fin 128) (k : Fin 257) :
    cat H A (ix3 b n k) = if h : k.val < 256 then H (ix3 b n ⟨k.val, h⟩) else A (ix3 b n (0 : Fin 1)) := rfl

/-- The output layer: one number per node. -/
def headAt (C : Arr3 1024 128 256) (W4 : Arr2 1 256) (b4 : Arr1 1) (b : Fin 1024) (n : Fin 128) : EReal :=
  (∑ h : Fin 256, C (ix3 b n h) * W4 (ix2 (0 : Fin 1) h)) + b4 (ix1 (0 : Fin 1))

def head (C : Arr3 1024 128 256) (W4 : Arr2 1 256) (b4 : Arr1 1) : Arr3 1024 128 1 :=
  fun i => headAt C W4 b4 (i 0) (i 1)

theorem head_apply (C : Arr3 1024 128 256) (W4 : Arr2 1 256) (b4 : Arr1 1) (b : Fin 1024) (n : Fin 128) (u : Fin 1) :
    head C W4 b4 (ix3 b n u) = (∑ h : Fin 256, C (ix3 b n h) * W4 (ix2 (0 : Fin 1) h)) + b4 (ix1 (0 : Fin 1)) := rfl

/-- The logits output: queries and keys are projections of the encoded observations. -/
def aw (X : Arr3 1024 128 64) (M : Arr3 1024 128 128) (We : Arr2 256 64) (be : Arr1 256)
    (Wk : Arr2 256 256) (bk : Arr1 256) (Wq : Arr2 256 256) (bq : Arr1 256) : Arr3 1024 128 128 :=
  logits (dense (dense X We be) Wq bq) (dense (dense X We be) Wk bk) M

/-- The critic's value output. -/
def value (X : Arr3 1024 128 64) (M : Arr3 1024 128 128) (A : Arr3 1024 128 1) (We : Arr2 256 64) (be : Arr1 256)
    (Wv : Arr2 256 256) (bv : Arr1 256) (Wk : Arr2 256 256) (bk : Arr1 256) (Wq : Arr2 256 256) (bq : Arr1 256)
    (W1 : Arr2 256 257) (b1 : Arr1 256) (W2 : Arr2 256 256) (b2 : Arr1 256) (W3 : Arr2 256 256) (b3 : Arr1 256)
    (W4 : Arr2 1 256) (b4 : Arr1 1) : Arr3 1024 128 1 :=
  head (dense (dense (dense (cat (attend (softmax (aw X M We be Wk bk Wq bq)) (dense (dense X We be) Wv bv)) A) W1 b1) W2 b2) W3 b3) W4 b4

end Cert.Spec

end
-- ==== Proof.RefSpec.lean ====
import proofs.«156557_j56143812493412_2_alg».proof.Proof.RefRead
import proofs.«156557_j56143812493412_2_alg».proof.Proof.Spec
import Idealize.ShloMosaic.PureOps.Ideal.Laws
import Idealize.ShloMosaic.Lib.ValueIdx
import Idealize.ShloMosaic.Lib.Pipeline.Value

/-
  The reference program computes the specification.

  The reference is a chain of whole-array operations on the batch of 1024 graphs.  Each stage of the specification
  (a dense layer with its rectifier, the masked and clamped logits, the softmax, the attention-weighted values, the
  appended action, the output layer) is a short run of those operations; read at one index (b, n, ·) the run is the
  stage's formula at that index, with the earlier stage left as it stands.  Chaining the stages gives the two outputs.
-/

noncomputable section

namespace Cert.RefSpec

open Cert.ReferenceIdeal Cert.ReferenceIdeal.Gen Cert.ReferenceIdeal.ReadP Idealize.ShloMosaic Idealize.ShloMosaic.ValueIdx

/-- Two indices of a literal shape are equal when their coordinates are, and each coordinate computes. -/
local macro "idx_eq" : tactic => `(tactic| (funext c; apply Fin.ext; fin_cases c <;> rfl))

variable (x0 : (⟨S1024x128x64, .f32⟩ : BufTy).Contents (Elt Ideal))
  (x1 : (⟨S1024x128x128, .f32⟩ : BufTy).Contents (Elt Ideal))
  (x2 : (⟨S1024x128x1, .f32⟩ : BufTy).Contents (Elt Ideal))
  (x3 : (⟨S256x64, .f32⟩ : BufTy).Contents (Elt Ideal))
  (x4 : (⟨S256, .f32⟩ : BufTy).Contents (Elt Ideal))
  (x5 : (⟨S256x256, .f32⟩ : BufTy).Contents (Elt Ideal))
  (x6 : (⟨S256, .f32⟩ : BufTy).Contents (Elt Ideal))
  (x7 : (⟨S256x256, .f32⟩ : BufTy).Contents (Elt Ideal))
  (x8 : (⟨S256, .f32⟩ : BufTy).Contents (Elt Ideal))
  (x9 : (⟨S256x256, .f32⟩ : BufTy).Contents (Elt Ideal))
  (x10 : (⟨S256, .f32⟩ : BufTy).Contents (Elt Ideal))
  (x11 : (⟨S256x257, .f32⟩ : BufTy).Contents (Elt Ideal))
  (x12 : (⟨S256, .f32⟩ : BufTy).Contents (Elt Ideal))
  (x13 : (⟨S256x256, .f32⟩ : BufTy).Contents (Elt Ideal))
  (x14 : (⟨S256, .f32⟩ : BufTy).Contents (Elt Ideal))
  (x15 : (⟨S256x256, .f32⟩ : BufTy).Contents (Elt Ideal))
  (x16 : (⟨S256, .f32⟩ : BufTy).Contents (Elt Ideal))
  (x17 : (⟨S1x256, .f32⟩ : BufTy).Contents (Elt Ideal))
  (x18 : (⟨S1, .f32⟩ : BufTy).Contents (Elt Ideal))

/-! ## The encoder and the three projections: dense layers with a rectifier -/

/-- The encoder: out[b, n, h] = max (∑ k, x[b, n, k] · We[h, k] + be[h]) 0. -/
theorem v4_eq : val_main_v4 (F := Ideal) x0 x3 x4 = Cert.Spec.dense x0 x3 x4 := by
  funext i
  obtain ⟨b, n, h, rfl⟩ : ∃ (b : Fin 1024) (n : Fin 128) (h : Fin 256), i = ix3 b n h := ⟨i 0, i 1, i 2, eq_ix3 i⟩
  have el : ∀ k : Fin 64, lidx_main_v0 (ix3 b n h) k = ix3 b n k := fun k => by idx_eq
  have er : ∀ k : Fin 64, ridx_main_v0 (ix3 b n h) k = ix2 h k := fun k => by idx_eq
  have eb : idx_main_v1 (idx_main_v2 (ix3 b n h)) = ix1 h := by idx_eq
  rw [val_main_v4_apply, val_main_v3_apply, val_main_v0_apply, val_main_v2_apply, val_main_v1_apply,
    val_main_call0_v0_apply, val_main_call0_cst_apply, Cert.Spec.dense_apply]
  simp only [el, er, eb, Ideal.maximumf_def, Ideal.addf_def, Ideal.ofBits_def]

/-- The value projection of the encoded observations. -/
theorem v9_eq : val_main_v9 (F := Ideal) x0 x3 x4 x5 x6 = Cert.Spec.dense (val_main_v4 (F := Ideal) x0 x3 x4) x5 x6 := by
  funext i
  obtain ⟨b, n, h, rfl⟩ : ∃ (b : Fin 1024) (n : Fin 128) (h : Fin 256), i = ix3 b n h := ⟨i 0, i 1, i 2, eq_ix3 i⟩
  have el : ∀ k : Fin 256, lidx_main_v5 (ix3 b n h) k = ix3 b n k := fun k => by idx_eq
  have er : ∀ k : Fin 256, ridx_main_v5 (ix3 b n h) k = ix2 h k := fun k => by idx_eq
  have eb : idx_main_v6 (idx_main_v7 (ix3 b n h)) = ix1 h := by idx_eq
  rw [val_main_v9_apply, val_main_v8_apply, val_main_v5_apply, val_main_v7_apply, val_main_v6_apply,
    val_main_call1_v0_apply, val_main_call1_cst_apply, Cert.Spec.dense_apply]
  simp only [el, er, eb, Ideal.maximumf_def, Ideal.addf_def, Ideal.ofBits_def]

/-- The query projection. -/
theorem v14_eq : val_main_v14 (F := Ideal) x0 x3 x4 x9 x10 = Cert.Spec.dense (val_main_v4 (F := Ideal) x0 x3 x4) x9 x10 := by
  funext i
  obtain ⟨b, n, h, rfl⟩ : ∃ (b : Fin 1024) (n : Fin 128) (h : Fin 256), i = ix3 b n h := ⟨i 0, i 1, i 2, eq_ix3 i⟩
  have el : ∀ k : Fin 256, lidx_main_v10 (ix3 b n h) k = ix3 b n k := fun k => by idx_eq
  have er : ∀ k : Fin 256, ridx_main_v10 (ix3 b n h) k = ix2 h k := fun k => by idx_eq
  have eb : idx_main_v11 (idx_main_v12 (ix3 b n h)) = ix1 h := by idx_eq
  rw [val_main_v14_apply, val_main_v13_apply, val_main_v10_apply, val_main_v12_apply, val_main_v11_apply,
    val_main_call2_v0_apply, val_main_call2_cst_apply, Cert.Spec.dense_apply]
  simp only [el, er, eb, Ideal.maximumf_def, Ideal.addf_def, Ideal.ofBits_def]

/-- The key projection. -/
theorem v19_eq : val_main_v19 (F := Ideal) x0 x3 x4 x7 x8 = Cert.Spec.dense (val_main_v4 (F := Ideal) x0 x3 x4) x7 x8 := by
  funext i
  obtain ⟨b, n, h, rfl⟩ : ∃ (b : Fin 1024) (n : Fin 128) (h : Fin 256), i = ix3 b n h := ⟨i 0, i 1, i 2, eq_ix3 i⟩
  have el : ∀ k : Fin 256, lidx_main_v15 (ix3 b n h) k = ix3 b n k := fun k => by idx_eq
  have er : ∀ k : Fin 256, ridx_main_v15 (ix3 b n h) k = ix2 h k := fun k => by idx_eq
  have eb : idx_main_v16 (idx_main_v17 (ix3 b n h)) = ix1 h := by idx_eq
  rw [val_main_v19_apply, val_main_v18_apply, val_main_v15_apply, val_main_v17_apply, val_main_v16_apply,
    val_main_call3_v0_apply, val_main_call3_cst_apply, Cert.Spec.dense_apply]
  simp only [el, er, eb, Ideal.maximumf_def, Ideal.addf_def, Ideal.ofBits_def]

/-! ## The attention logits -/

/-- The logit of node n towards node j: the query–key product times the mask, clamped, minus the masking term. -/
theorem v27_eq : val_main_v27 (F := Ideal) x0 x1 x3 x4 x7 x8 x9 x10
    = Cert.Spec.logits (val_main_v14 (F := Ideal) x0 x3 x4 x9 x10) (val_main_v19 (F := Ideal) x0 x3 x4 x7 x8) x1 := by
  funext i
  obtain ⟨b, n, j, rfl⟩ : ∃ (b : Fin 1024) (n : Fin 128) (j : Fin 128), i = ix3 b n j := ⟨i 0, i 1, i 2, eq_ix3 i⟩
  have el : ∀ k : Fin 256, lidx_main_v20 (ix3 b n j) k = ix3 b n k := fun k => by idx_eq
  have er : ∀ k : Fin 256, ridx_main_v20 (ix3 b n j) k = ix3 b j k := fun k => by idx_eq
  rw [val_main_v27_apply, val_main_v22_apply, val_main_call4_v4_apply, val_main_call4_v3_apply, val_main_cst_0_apply,
    val_main_call4_v2_apply, val_main_call4_v1_apply, val_main_call4_v0_apply, val_main_cst_apply,
    val_main_v21_apply, val_main_v20_apply, val_main_v26_apply, val_main_v25_apply, val_main_cst_2_apply,
    val_main_v24_apply, val_main_v23_apply, val_main_cst_1_apply, Cert.Spec.logits_apply]
  simp only [el, er, Ideal.minimumf_def, Ideal.maximumf_def, Ideal.subf_def, Ideal.mulf_def, Ideal.ofBits_def]

/-! ## The softmax over the last axis -/

/-- Row (b, n) with coordinate k put back on the reduced axis is the index (b, n, k). -/
theorem lift_last (hR : S1024x128x128.Reduces [2] S1024x128) (b : Fin 1024) (n : Fin 128)
    (k : Fin (S1024x128x128.size 2)) : hR.lift (ix2 b n) k = ix3 b n (⟨k.val, k.isLt⟩ : Fin 128) := by
  funext c; apply Fin.ext; fin_cases c <;> rfl

/-- The row maximum: the fold of the maximum from −∞ along the last axis, joined with −∞ once more. -/
theorem v30_at (b : Fin 1024) (n : Fin 128) :
    val_main_v30 (F := Ideal) x0 x1 x3 x4 x7 x8 x9 x10 (ix2 b n)
      = Cert.Spec.rowMax (val_main_v27 (F := Ideal) x0 x1 x3 x4 x7 x8 x9 x10) b n := by
  have hR : S1024x128x128.Reduces [2] S1024x128 := by decide
  have hf : (val_main_v27 (F := Ideal) x0 x1 x3 x4 x7 x8 x9 x10 ∘ hR.lift (ix2 b n))
      = fun k : Fin 128 => val_main_v27 (F := Ideal) x0 x1 x3 x4 x7 x8 x9 x10 (ix3 b n k) :=
    funext fun k => congrArg (val_main_v27 (F := Ideal) x0 x1 x3 x4 x7 x8 x9 x10) (lift_last hR b n k)
  rw [val_main_v30_apply, val_main_v29_apply, val_main_cst_4_apply]
  unfold val_main_v28 Cert.Spec.rowMax
  rw [Host.reduce_eq_fold_single FloatOps.maximumf _ _ _ hR]
  exact congrArg (fun f => max (Ideal.ofBits .f32 0xFF800000#32)
    (Finset.fold max (Ideal.ofBits .f32 0xFF800000#32) f (Finset.univ : Finset (Fin 128)))) hf

/-- The shifted exponential at (b, n, j). -/
theorem v34_at (b : Fin 1024) (n j : Fin 128) :
    val_main_v34 (F := Ideal) x0 x1 x3 x4 x7 x8 x9 x10 (ix3 b n j)
      = Ideal.exp (val_main_v27 (F := Ideal) x0 x1 x3 x4 x7 x8 x9 x10 (ix3 b n j)
          - Cert.Spec.rowMax (val_main_v27 (F := Ideal) x0 x1 x3 x4 x7 x8 x9 x10) b n) := by
  have e1 : idx_main_v31 (idx_main_v32 (ix3 b n j)) = ix2 b n := by idx_eq
  rw [val_main_v34_apply, val_main_v33_apply, val_main_v32_apply, val_main_v31_apply, e1, v30_at]
  simp only [Ideal.hostUnary_exp_def, Ideal.subf_def]

/-- The row sum of the shifted exponentials; the host's sum starts from the word 0.0, which is 0. -/
theorem v35_at (b : Fin 1024) (n : Fin 128) :
    val_main_v35 (F := Ideal) x0 x1 x3 x4 x7 x8 x9 x10 (ix2 b n)
      = Cert.Spec.rowSum (val_main_v27 (F := Ideal) x0 x1 x3 x4 x7 x8 x9 x10) b n := by
  have e : ∀ k : Fin 128, idx_main_v35 (ix2 b n) k = ix3 b n k := fun k => by idx_eq
  rw [val_main_v35_apply, val_main_cst_5_apply, Ideal.ofBits_def, Ideal.ofBits_zero_f32, zero_add]
  unfold Cert.Spec.rowSum
  simp only [e, v34_at]

theorem v38_eq : val_main_v38 (F := Ideal) x0 x1 x3 x4 x7 x8 x9 x10
    = Cert.Spec.softmax (val_main_v27 (F := Ideal) x0 x1 x3 x4 x7 x8 x9 x10) := by
  funext i
  obtain ⟨b, n, j, rfl⟩ : ∃ (b : Fin 1024) (n : Fin 128) (j : Fin 128), i = ix3 b n j := ⟨i 0, i 1, i 2, eq_ix3 i⟩
  have e1 : idx_main_v36 (idx_main_v37 (ix3 b n j)) = ix2 b n := by idx_eq
  rw [val_main_v38_apply, val_main_v37_apply, val_main_v36_apply, e1, v34_at, v35_at, Cert.Spec.softmax_apply]
  simp only [Ideal.hostDivf_def]

/-! ## The attended values and the appended action -/

theorem v39_eq : val_main_v39 (F := Ideal) x0 x1 x3 x4 x5 x6 x7 x8 x9 x10
    = Cert.Spec.attend (val_main_v38 (F := Ideal) x0 x1 x3 x4 x7 x8 x9 x10) (val_main_v9 (F := Ideal) x0 x3 x4 x5 x6) := by
  funext i
  obtain ⟨b, n, c, rfl⟩ : ∃ (b : Fin 1024) (n : Fin 128) (c : Fin 256), i = ix3 b n c := ⟨i 0, i 1, i 2, eq_ix3 i⟩
  have el : ∀ k : Fin 128, lidx_main_v39 (ix3 b n c) k = ix3 b n k := fun k => by idx_eq
  have er : ∀ k : Fin 128, ridx_main_v39 (ix3 b n c) k = ix3 b k c := fun k => by idx_eq
  rw [val_main_v39_apply, Cert.Spec.attend_apply]
  simp only [el, er]

/-- Features 0 … 255 of the concatenation are the attended values, feature 256 is the action. -/
theorem v40_eq : val_main_v40 (F := Ideal) x0 x1 x2 x3 x4 x5 x6 x7 x8 x9 x10
    = Cert.Spec.cat (val_main_v39 (F := Ideal) x0 x1 x3 x4 x5 x6 x7 x8 x9 x10) x2 := by
  funext i
  obtain ⟨b, n, k, rfl⟩ : ∃ (b : Fin 1024) (n : Fin 128) (k : Fin 257), i = ix3 b n k := ⟨i 0, i 1, i 2, eq_ix3 i⟩
  rw [Cert.Spec.cat_apply]
  unfold val_main_v40
  by_cases hk : k.val < 256
  · rw [dif_pos hk]
    exact concatenate_pair_apply_left (s₁ := S1024x128x256) (s₂ := S1024x128x1) (2 : Fin S1024x128x257.rank) _ _ _ (ix3 b n k) rfl (ix3 b n (⟨k.val, hk⟩ : Fin 256))
      (fun c => by fin_cases c <;> rfl)
  · rw [dif_neg hk]
    have hk' : 0 + 256 = k.val := by have := k.isLt; omega
    exact concatenate_pair_apply_right (s₁ := S1024x128x256) (s₂ := S1024x128x1) (2 : Fin S1024x128x257.rank) _ _ _ (ix3 b n k) rfl rfl (ix3 b n (0 : Fin 1))
      (fun c hc => by
        fin_cases c
        · rfl
        · rfl
        · exact absurd rfl hc) hk'

/-! ## The critic's three dense layers and the output layer -/

theorem v45_eq : val_main_v45 (F := Ideal) x0 x1 x2 x3 x4 x5 x6 x7 x8 x9 x10 x11 x12
    = Cert.Spec.dense (val_main_v40 (F := Ideal) x0 x1 x2 x3 x4 x5 x6 x7 x8 x9 x10) x11 x12 := by
  funext i
  obtain ⟨b, n, h, rfl⟩ : ∃ (b : Fin 1024) (n : Fin 128) (h : Fin 256), i = ix3 b n h := ⟨i 0, i 1, i 2, eq_ix3 i⟩
  have el : ∀ k : Fin 257, lidx_main_v41 (ix3 b n h) k = ix3 b n k := fun k => by idx_eq
  have er : ∀ k : Fin 257, ridx_main_v41 (ix3 b n h) k = ix2 h k := fun k => by idx_eq
  have eb : idx_main_v42 (idx_main_v43 (ix3 b n h)) = ix1 h := by idx_eq
  rw [val_main_v45_apply, val_main_v44_apply, val_main_v41_apply, val_main_v43_apply, val_main_v42_apply,
    val_main_call5_v0_apply, val_main_call5_cst_apply, Cert.Spec.dense_apply]
  simp only [el, er, eb, Ideal.maximumf_def, Ideal.addf_def, Ideal.ofBits_def]

theorem v50_eq : val_main_v50 (F := Ideal) x0 x1 x2 x3 x4 x5 x6 x7 x8 x9 x10 x11 x12 x13 x14
    = Cert.Spec.dense (val_main_v45 (F := Ideal) x0 x1 x2 x3 x4 x5 x6 x7 x8 x9 x10 x11 x12) x13 x14 := by
  funext i
  obtain ⟨b, n, h, rfl⟩ : ∃ (b : Fin 1024) (n : Fin 128) (h : Fin 256), i = ix3 b n h := ⟨i 0, i 1, i 2, eq_ix3 i⟩
  have el : ∀ k : Fin 256, lidx_main_v46 (ix3 b n h) k = ix3 b n k := fun k => by idx_eq
  have er : ∀ k : Fin 256, ridx_main_v46 (ix3 b n h) k = ix2 h k := fun k => by idx_eq
  have eb : idx_main_v47 (idx_main_v48 (ix3 b n h)) = ix1 h := by idx_eq
  rw [val_main_v50_apply, val_main_v49_apply, val_main_v46_apply, val_main_v48_apply, val_main_v47_apply,
    val_main_call6_v0_apply, val_main_call6_cst_apply, Cert.Spec.dense_apply]
  simp only [el, er, eb, Ideal.maximumf_def, Ideal.addf_def, Ideal.ofBits_def]

theorem v55_eq : val_main_v55 (F := Ideal) x0 x1 x2 x3 x4 x5 x6 x7 x8 x9 x10 x11 x12 x13 x14 x15 x16
    = Cert.Spec.dense (val_main_v50 (F := Ideal) x0 x1 x2 x3 x4 x5 x6 x7 x8 x9 x10 x11 x12 x13 x14) x15 x16 := by
  funext i
  obtain ⟨b, n, h, rfl⟩ : ∃ (b : Fin 1024) (n : Fin 128) (h : Fin 256), i = ix3 b n h := ⟨i 0, i 1, i 2, eq_ix3 i⟩
  have el : ∀ k : Fin 256, lidx_main_v51 (ix3 b n h) k = ix3 b n k := fun k => by idx_eq
  have er : ∀ k : Fin 256, ridx_main_v51 (ix3 b n h) k = ix2 h k := fun k => by idx_eq
  have eb : idx_main_v52 (idx_main_v53 (ix3 b n h)) = ix1 h := by idx_eq
  rw [val_main_v55_apply, val_main_v54_apply, val_main_v51_apply, val_main_v53_apply, val_main_v52_apply,
    val_main_call7_v0_apply, val_main_call7_cst_apply, Cert.Spec.dense_apply]
  simp only [el, er, eb, Ideal.maximumf_def, Ideal.addf_def, Ideal.ofBits_def]

/-- The output layer: one number per node, ∑ h, c[b, n, h] · W4[0, h] + b4[0]. -/
theorem v59_eq : val_main_v59 (F := Ideal) x0 x1 x2 x3 x4 x5 x6 x7 x8 x9 x10 x11 x12 x13 x14 x15 x16 x17 x18
    = Cert.Spec.head (val_main_v55 (F := Ideal) x0 x1 x2 x3 x4 x5 x6 x7 x8 x9 x10 x11 x12 x13 x14 x15 x16) x17 x18 := by
  funext i
  obtain ⟨b, n, u, rfl⟩ : ∃ (b : Fin 1024) (n : Fin 128) (u : Fin 1), i = ix3 b n u := ⟨i 0, i 1, i 2, eq_ix3 i⟩
  obtain rfl : u = 0 := Subsingleton.elim _ _
  have el : ∀ k : Fin 256, lidx_main_v56 (ix3 b n (0 : Fin 1)) k = ix3 b n k := fun k => by idx_eq
  have er : ∀ k : Fin 256, ridx_main_v56 (ix3 b n (0 : Fin 1)) k = ix2 (0 : Fin 1) k := fun k => by idx_eq
  have eb : idx_main_v57 (idx_main_v58 (ix3 b n (0 : Fin 1))) = ix1 (0 : Fin 1) := by idx_eq
  rw [val_main_v59_apply, val_main_v56_apply, val_main_v58_apply, val_main_v57_apply, Cert.Spec.head_apply]
  simp only [el, er, eb, Ideal.addf_def]

/-! ## The two outputs -/

/-- The reference's logits output is the specification's. -/
theorem aw_eq : val_main_v27 (F := Ideal) x0 x1 x3 x4 x7 x8 x9 x10 = Cert.Spec.aw x0 x1 x3 x4 x7 x8 x9 x10 := by
  rw [v27_eq, v14_eq, v19_eq, v4_eq]
  rfl

/-- The reference's value output is the specification's. -/
theorem value_eq : val_main_v59 (F := Ideal) x0 x1 x2 x3 x4 x5 x6 x7 x8 x9 x10 x11 x12 x13 x14 x15 x16 x17 x18 = Cert.Spec.value x0 x1 x2 x3 x4 x5 x6 x7 x8 x9 x10 x11 x12 x13 x14 x15 x16 x17 x18 := by
  rw [v59_eq, v55_eq, v50_eq, v45_eq, v40_eq, v39_eq, v38_eq, aw_eq, v9_eq, v4_eq]
  rfl

end Cert.RefSpec

end
-- ==== Proof.KStmt.lean ====
/-
  What one grid step of the kernel computes, stated once so that the two halves of the proof can meet on it.

  The kernel body sees sixteen graphs at a time: blocks x0, x1, x2 of the observations, the mask and the actions,
  and every weight whole.  If graph bb of the block is graph e bb of the batch, then entry (bb, n, j) of the logits
  block the body stores is entry (e bb, n, j) of the specification's logits, and entry (bb, n) of the value block
  is the specification's value at (e bb, n, 0).  The body's two stored values are the generated payload terms.
-/
import proofs.«156557_j56143812493412_2_alg».proof.Proof.Gen.KernelIdeal.Skeleton
import proofs.«156557_j56143812493412_2_alg».proof.Proof.Spec
import Idealize.ShloMosaic.Lib.ValueIdx

noncomputable section

namespace Cert.KStmt

open Cert.KernelIdeal Cert.KernelIdeal.Gen Idealize.ShloMosaic Idealize.ShloMosaic.ValueIdx

/-- The logits block is the specification's logits, graph by graph. -/
def Block20 : Prop :=
  ∀ (e : Fin 16 → Fin 1024) (X : Cert.Spec.Arr3 1024 128 64) (M : Cert.Spec.Arr3 1024 128 128)
    (x0 : Vec Ideal S16x128x64 .f32) (x1 : Vec Ideal S16x128x128 .f32)
    (We : Vec Ideal S256x64 .bf16) (be : Vec Ideal S256 .f32) (Wk : Vec Ideal S256x256 .bf16) (bk : Vec Ideal S256 .f32)
    (Wq : Vec Ideal S256x256 .bf16) (bq : Vec Ideal S256 .f32),
    (∀ (bb : Fin 16) (n : Fin 128) (d : Fin 64), x0 (ix3 bb n d) = X (ix3 (e bb) n d)) →
    (∀ (bb : Fin 16) (n j : Fin 128), x1 (ix3 bb n j) = M (ix3 (e bb) n j)) →
    ∀ (bb : Fin 16) (n j : Fin 128),
      k0_pay6 (F := Ideal) (k0_pay4 x0 We be Wq bq) (k0_pay5 x0 We be Wk) bk x1 (ix3 bb n j)
        = Cert.Spec.aw X M We be Wk bk Wq bq (ix3 (e bb) n j)

/-- The value block is the specification's value, graph by graph. -/
def Block19 : Prop :=
  ∀ (e : Fin 16 → Fin 1024) (X : Cert.Spec.Arr3 1024 128 64) (M : Cert.Spec.Arr3 1024 128 128) (A : Cert.Spec.Arr3 1024 128 1)
    (x0 : Vec Ideal S16x128x64 .f32) (x1 : Vec Ideal S16x128x128 .f32) (x2 : Vec Ideal S16x128x1 .f32)
    (We : Vec Ideal S256x64 .bf16) (be : Vec Ideal S256 .f32) (Wv : Vec Ideal S256x256 .bf16) (bv : Vec Ideal S256 .f32)
    (Wk : Vec Ideal S256x256 .bf16) (bk : Vec Ideal S256 .f32) (Wq : Vec Ideal S256x256 .bf16) (bq : Vec Ideal S256 .f32)
    (W1 : Vec Ideal S256x257 .bf16) (b1 : Vec Ideal S256 .f32) (W2 : Vec Ideal S256x256 .bf16) (b2 : Vec Ideal S256 .f32)
    (W3 : Vec Ideal S256x256 .bf16) (b3 : Vec Ideal S256 .f32) (W4 : Vec Ideal S1x256 .bf16) (b4 : Vec Ideal S1 .f32),
    (∀ (bb : Fin 16) (n : Fin 128) (d : Fin 64), x0 (ix3 bb n d) = X (ix3 (e bb) n d)) →
    (∀ (bb : Fin 16) (n j : Fin 128), x1 (ix3 bb n j) = M (ix3 (e bb) n j)) →
    (∀ (bb : Fin 16) (n : Fin 128) (u : Fin 1), x2 (ix3 bb n u) = A (ix3 (e bb) n u)) →
    ∀ (bb : Fin 16) (n : Fin 128),
      k0_pay1 (F := Ideal)
          (k0_pay8 (k0_pay7 (k0_pay3 x0 We be Wv bv) (k0_pay4 x0 We be Wq bq) (k0_pay5 x0 We be Wk) bk x1) x2 W1 b1 W2 b2 W3 b3)
          (k0_pay9 b4) (k0_pay10 W4) (ix2 bb n)
        = Cert.Spec.value X M A We be Wv bv Wk bk Wq bq W1 b1 W2 b2 W3 b3 W4 b4 (ix3 (e bb) n (0 : Fin 1))

end Cert.KStmt

end
-- ==== Proof.KBlocks.lean ====
/-
  From the kernel's blocks to its whole result arrays.

  The grid has 64 points; point t stages graphs 16·t … 16·t + 15 of the observations, the mask and the actions, and
  every weight array whole (the weight matrices in a copy rounded to a narrower format, which at exact arithmetic is
  the matrix itself).  What point t writes back to the logits array is block t of the specification's logits, and what
  it writes back to the value array is block t of the specification's values; the 64 blocks tile both arrays, so after
  the run each array is the specification's, whole.  One host line follows the region: it views the [1024, 128] value
  array as [1024, 128, 1].  The per-block facts are taken as hypotheses here (Cert.KStmt.Block19 / Block20).
-/
import proofs.«156557_j56143812493412_2_alg».proof.Proof.Gen.KernelIdeal.Frame
import proofs.«156557_j56143812493412_2_alg».proof.Proof.KStmt
import Idealize.ShloMosaic.Lib.Pipeline.Value
import Idealize.ShloMosaic.Lib.ValueIdx
import Idealize.ShloMosaic.Lib.StableHlo.Run

noncomputable section

namespace Cert.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where each window's block sits -/

/-- The three batched inputs and the two outputs move with the grid point along the graph axis only. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_19.index t (0 : Fin 2) = t.val ∧ win0_19.index t (1 : Fin 2) = 0
    ∧ win0_20.index t (0 : Fin 3) = t.val ∧ win0_20.index t (1 : Fin 3) = 0 ∧ win0_20.index t (2 : Fin 3) = 0 :=
  (by decide +kernel : ∀ t : Fin grid0.N, _)

theorem t_lt (t : Fin cfg0.N) : t.val < 64 := lt_of_lt_of_eq t.isLt N_0

/-- Graph bb of the block staged at point t is graph 16·t + bb of the batch. -/
def gidx (t : Fin cfg0.N) (bb : Fin 16) : Fin 1024 := ⟨t.val * 16 + bb.val, by have := t_lt t; have := bb.isLt; omega⟩

/-- Every weight window is its whole array at every point. -/
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 1) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 1) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 1) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 1) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 1) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 1) = 0 :=
  (by decide +kernel : ∀ t : Fin grid0.N, _)
theorem idx_w15 : ∀ t : Fin cfg0.N, win0_15.index t (0 : Fin 2) = 0 ∧ win0_15.index t (1 : Fin 2) = 0 :=
  (by decide +kernel : ∀ t : Fin grid0.N, _)
theorem idx_w16 : ∀ t : Fin cfg0.N, win0_16.index t (0 : Fin 1) = 0 :=
  (by decide +kernel : ∀ t : Fin grid0.N, _)
theorem idx_w17 : ∀ t : Fin cfg0.N, win0_17.index t (0 : Fin 2) = 0 ∧ win0_17.index t (1 : Fin 2) = 0 :=
  (by decide +kernel : ∀ t : Fin grid0.N, _)
theorem idx_w18 : ∀ t : Fin cfg0.N, win0_18.index t (0 : Fin 1) = 0 :=
  (by decide +kernel : ∀ t : Fin grid0.N, _)

/-! ## The arrays as the region finds them -/

/-- The rounded copy of argument 3 holds, at exact arithmetic, the argument's entries. -/
theorem V_v0 (c : Dev nD) : (V m c main_v0 : S256x64.Idx → EReal) = m ((c : Thread nD τ).loc main_arg3) := by
  show StableHlo.after hostOps0 (fun b => m (c, b)) (Proc.devRef .tc main_v0) = _
  after_results
  rfl
/-- The rounded copy of argument 5 holds, at exact arithmetic, the argument's entries. -/
theorem V_v1 (c : Dev nD) : (V m c main_v1 : S256x256.Idx → EReal) = m ((c : Thread nD τ).loc main_arg5) := by
  show StableHlo.after hostOps0 (fun b => m (c, b)) (Proc.devRef .tc main_v1) = _
  after_results
  rfl
/-- The rounded copy of argument 7 holds, at exact arithmetic, the argument's entries. -/
theorem V_v2 (c : Dev nD) : (V m c main_v2 : S256x256.Idx → EReal) = m ((c : Thread nD τ).loc main_arg7) := by
  show StableHlo.after hostOps0 (fun b => m (c, b)) (Proc.devRef .tc main_v2) = _
  after_results
  rfl
/-- The rounded copy of argument 9 holds, at exact arithmetic, the argument's entries. -/
theorem V_v3 (c : Dev nD) : (V m c main_v3 : S256x256.Idx → EReal) = m ((c : Thread nD τ).loc main_arg9) := by
  show StableHlo.after hostOps0 (fun b => m (c, b)) (Proc.devRef .tc main_v3) = _
  after_results
  rfl
/-- The rounded copy of argument 11 holds, at exact arithmetic, the argument's entries. -/
theorem V_v4 (c : Dev nD) : (V m c main_v4 : S256x257.Idx → EReal) = m ((c : Thread nD τ).loc main_arg11) := by
  show StableHlo.after hostOps0 (fun b => m (c, b)) (Proc.devRef .tc main_v4) = _
  after_results
  rfl
/-- The rounded copy of argument 13 holds, at exact arithmetic, the argument's entries. -/
theorem V_v5 (c : Dev nD) : (V m c main_v5 : S256x256.Idx → EReal) = m ((c : Thread nD τ).loc main_arg13) := by
  show StableHlo.after hostOps0 (fun b => m (c, b)) (Proc.devRef .tc main_v5) = _
  after_results
  rfl
/-- The rounded copy of argument 15 holds, at exact arithmetic, the argument's entries. -/
theorem V_v6 (c : Dev nD) : (V m c main_v6 : S256x256.Idx → EReal) = m ((c : Thread nD τ).loc main_arg15) := by
  show StableHlo.after hostOps0 (fun b => m (c, b)) (Proc.devRef .tc main_v6) = _
  after_results
  rfl
/-- The rounded copy of argument 17 holds, at exact arithmetic, the argument's entries. -/
theorem V_v7 (c : Dev nD) : (V m c main_v7 : S1x256.Idx → EReal) = m ((c : Thread nD τ).loc main_arg17) := by
  show StableHlo.after hostOps0 (fun b => m (c, b)) (Proc.devRef .tc main_v7) = _
  after_results
  rfl

/-! ## What each window's block holds -/

/-- Block t of argument 0: graphs 16·t … 16·t + 15. -/
theorem rd0 (c : Dev nD) (t : Fin cfg0.N) (bb : Fin 16) (n : Fin 128) (d : Fin 64) :
    iblk m c 0 t (ix3 bb n d) = m ((c : Thread nD τ).loc main_arg0) (ix3 (gidx t bb) n d) := by
  show V m c main_arg0 (((cfg0.win 0).blk t).view.emb (ix3 bb n d)) = _
  rw [V_main_arg0]
  refine congrArg _ ?_
  obtain ⟨a0, a1, a2, b0, b1, b2, c0, c1, c2, -⟩ := idx_facts t
  funext a; apply Fin.ext
  match a with
  | ⟨0, _⟩ => show win0_0.index t (0 : Fin 3) * 16 + 1 * bb.val = t.val * 16 + bb.val; omega
  | ⟨1, _⟩ => show win0_0.index t (1 : Fin 3) * 128 + 1 * n.val = n.val; omega
  | ⟨2, _⟩ => show win0_0.index t (2 : Fin 3) * 64 + 1 * d.val = d.val; omega
/-- Block t of argument 1: graphs 16·t … 16·t + 15. -/
theorem rd1 (c : Dev nD) (t : Fin cfg0.N) (bb : Fin 16) (n : Fin 128) (j : Fin 128) :
    iblk m c 1 t (ix3 bb n j) = m ((c : Thread nD τ).loc main_arg1) (ix3 (gidx t bb) n j) := by
  show V m c main_arg1 (((cfg0.win 1).blk t).view.emb (ix3 bb n j)) = _
  rw [V_main_arg1]
  refine congrArg _ ?_
  obtain ⟨a0, a1, a2, b0, b1, b2, c0, c1, c2, -⟩ := idx_facts t
  funext a; apply Fin.ext
  match a with
  | ⟨0, _⟩ => show win0_1.index t (0 : Fin 3) * 16 + 1 * bb.val = t.val * 16 + bb.val; omega
  | ⟨1, _⟩ => show win0_1.index t (1 : Fin 3) * 128 + 1 * n.val = n.val; omega
  | ⟨2, _⟩ => show win0_1.index t (2 : Fin 3) * 128 + 1 * j.val = j.val; omega
/-- Block t of argument 2: graphs 16·t … 16·t + 15. -/
theorem rd2 (c : Dev nD) (t : Fin cfg0.N) (bb : Fin 16) (n : Fin 128) (u : Fin 1) :
    iblk m c 2 t (ix3 bb n u) = m ((c : Thread nD τ).loc main_arg2) (ix3 (gidx t bb) n u) := by
  show V m c main_arg2 (((cfg0.win 2).blk t).view.emb (ix3 bb n u)) = _
  rw [V_main_arg2]
  refine congrArg _ ?_
  obtain ⟨a0, a1, a2, b0, b1, b2, c0, c1, c2, -⟩ := idx_facts t
  funext a; apply Fin.ext
  match a with
  | ⟨0, _⟩ => show win0_2.index t (0 : Fin 3) * 16 + 1 * bb.val = t.val * 16 + bb.val; omega
  | ⟨1, _⟩ => show win0_2.index t (1 : Fin 3) * 128 + 1 * n.val = n.val; omega
  | ⟨2, _⟩ => show win0_2.index t (2 : Fin 3) * 1 + 1 * u.val = u.val; omega
theorem rd3 (c : Dev nD) (t : Fin cfg0.N) : (iblk m c 3 t : S256x64.Idx → EReal) = m ((c : Thread nD τ).loc main_arg3) := by
  funext y
  show V m c main_v0 (((cfg0.win 3).blk t).view.emb y) = _
  rw [V_v0]
  refine congrArg _ ?_
  obtain ⟨e0, e1⟩ := idx_w3 t
  funext a; apply Fin.ext
  match a with
  | ⟨0, _⟩ => show win0_3.index t (0 : Fin 2) * 256 + 1 * (y 0).val = (y 0).val; omega
  | ⟨1, _⟩ => show win0_3.index t (1 : Fin 2) * 64 + 1 * (y 1).val = (y 1).val; omega
theorem rd4 (c : Dev nD) (t : Fin cfg0.N) : (iblk m c 4 t : S256.Idx → EReal) = m ((c : Thread nD τ).loc main_arg4) := by
  funext y
  show V m c main_arg4 (((cfg0.win 4).blk t).view.emb y) = _
  rw [V_main_arg4]
  refine congrArg _ ?_
  have e0 := idx_w4 t
  funext a; apply Fin.ext
  match a with
  | ⟨0, _⟩ => show win0_4.index t (0 : Fin 1) * 256 + 1 * (y 0).val = (y 0).val; omega
theorem rd5 (c : Dev nD) (t : Fin cfg0.N) : (iblk m c 5 t : S256x256.Idx → EReal) = m ((c : Thread nD τ).loc main_arg5) := by
  funext y
  show V m c main_v1 (((cfg0.win 5).blk t).view.emb y) = _
  rw [V_v1]
  refine congrArg _ ?_
  obtain ⟨e0, e1⟩ := idx_w5 t
  funext a; apply Fin.ext
  match a with
  | ⟨0, _⟩ => show win0_5.index t (0 : Fin 2) * 256 + 1 * (y 0).val = (y 0).val; omega
  | ⟨1, _⟩ => show win0_5.index t (1 : Fin 2) * 256 + 1 * (y 1).val = (y 1).val; omega
theorem rd6 (c : Dev nD) (t : Fin cfg0.N) : (iblk m c 6 t : S256.Idx → EReal) = m ((c : Thread nD τ).loc main_arg6) := by
  funext y
  show V m c main_arg6 (((cfg0.win 6).blk t).view.emb y) = _
  rw [V_main_arg6]
  refine congrArg _ ?_
  have e0 := idx_w6 t
  funext a; apply Fin.ext
  match a with
  | ⟨0, _⟩ => show win0_6.index t (0 : Fin 1) * 256 + 1 * (y 0).val = (y 0).val; omega
theorem rd7 (c : Dev nD) (t : Fin cfg0.N) : (iblk m c 7 t : S256x256.Idx → EReal) = m ((c : Thread nD τ).loc main_arg7) := by
  funext y
  show V m c main_v2 (((cfg0.win 7).blk t).view.emb y) = _
  rw [V_v2]
  refine congrArg _ ?_
  obtain ⟨e0, e1⟩ := idx_w7 t
  funext a; apply Fin.ext
  match a with
  | ⟨0, _⟩ => show win0_7.index t (0 : Fin 2) * 256 + 1 * (y 0).val = (y 0).val; omega
  | ⟨1, _⟩ => show win0_7.index t (1 : Fin 2) * 256 + 1 * (y 1).val = (y 1).val; omega
theorem rd8 (c : Dev nD) (t : Fin cfg0.N) : (iblk m c 8 t : S256.Idx → EReal) = m ((c : Thread nD τ).loc main_arg8) := by
  funext y
  show V m c main_arg8 (((cfg0.win 8).blk t).view.emb y) = _
  rw [V_main_arg8]
  refine congrArg _ ?_
  have e0 := idx_w8 t
  funext a; apply Fin.ext
  match a with
  | ⟨0, _⟩ => show win0_8.index t (0 : Fin 1) * 256 + 1 * (y 0).val = (y 0).val; omega
theorem rd9 (c : Dev nD) (t : Fin cfg0.N) : (iblk m c 9 t : S256x256.Idx → EReal) = m ((c : Thread nD τ).loc main_arg9) := by
  funext y
  show V m c main_v3 (((cfg0.win 9).blk t).view.emb y) = _
  rw [V_v3]
  refine congrArg _ ?_
  obtain ⟨e0, e1⟩ := idx_w9 t
  funext a; apply Fin.ext
  match a with
  | ⟨0, _⟩ => show win0_9.index t (0 : Fin 2) * 256 + 1 * (y 0).val = (y 0).val; omega
  | ⟨1, _⟩ => show win0_9.index t (1 : Fin 2) * 256 + 1 * (y 1).val = (y 1).val; omega
theorem rd10 (c : Dev nD) (t : Fin cfg0.N) : (iblk m c 10 t : S256.Idx → EReal) = m ((c : Thread nD τ).loc main_arg10) := by
  funext y
  show V m c main_arg10 (((cfg0.win 10).blk t).view.emb y) = _
  rw [V_main_arg10]
  refine congrArg _ ?_
  have e0 := idx_w10 t
  funext a; apply Fin.ext
  match a with
  | ⟨0, _⟩ => show win0_10.index t (0 : Fin 1) * 256 + 1 * (y 0).val = (y 0).val; omega
theorem rd11 (c : Dev nD) (t : Fin cfg0.N) : (iblk m c 11 t : S256x257.Idx → EReal) = m ((c : Thread nD τ).loc main_arg11) := by
  funext y
  show V m c main_v4 (((cfg0.win 11).blk t).view.emb y) = _
  rw [V_v4]
  refine congrArg _ ?_
  obtain ⟨e0, e1⟩ := idx_w11 t
  funext a; apply Fin.ext
  match a with
  | ⟨0, _⟩ => show win0_11.index t (0 : Fin 2) * 256 + 1 * (y 0).val = (y 0).val; omega
  | ⟨1, _⟩ => show win0_11.index t (1 : Fin 2) * 257 + 1 * (y 1).val = (y 1).val; omega
theorem rd12 (c : Dev nD) (t : Fin cfg0.N) : (iblk m c 12 t : S256.Idx → EReal) = m ((c : Thread nD τ).loc main_arg12) := by
  funext y
  show V m c main_arg12 (((cfg0.win 12).blk t).view.emb y) = _
  rw [V_main_arg12]
  refine congrArg _ ?_
  have e0 := idx_w12 t
  funext a; apply Fin.ext
  match a with
  | ⟨0, _⟩ => show win0_12.index t (0 : Fin 1) * 256 + 1 * (y 0).val = (y 0).val; omega
theorem rd13 (c : Dev nD) (t : Fin cfg0.N) : (iblk m c 13 t : S256x256.Idx → EReal) = m ((c : Thread nD τ).loc main_arg13) := by
  funext y
  show V m c main_v5 (((cfg0.win 13).blk t).view.emb y) = _
  rw [V_v5]
  refine congrArg _ ?_
  obtain ⟨e0, e1⟩ := idx_w13 t
  funext a; apply Fin.ext
  match a with
  | ⟨0, _⟩ => show win0_13.index t (0 : Fin 2) * 256 + 1 * (y 0).val = (y 0).val; omega
  | ⟨1, _⟩ => show win0_13.index t (1 : Fin 2) * 256 + 1 * (y 1).val = (y 1).val; omega
theorem rd14 (c : Dev nD) (t : Fin cfg0.N) : (iblk m c 14 t : S256.Idx → EReal) = m ((c : Thread nD τ).loc main_arg14) := by
  funext y
  show V m c main_arg14 (((cfg0.win 14).blk t).view.emb y) = _
  rw [V_main_arg14]
  refine congrArg _ ?_
  have e0 := idx_w14 t
  funext a; apply Fin.ext
  match a with
  | ⟨0, _⟩ => show win0_14.index t (0 : Fin 1) * 256 + 1 * (y 0).val = (y 0).val; omega
theorem rd15 (c : Dev nD) (t : Fin cfg0.N) : (iblk m c 15 t : S256x256.Idx → EReal) = m ((c : Thread nD τ).loc main_arg15) := by
  funext y
  show V m c main_v6 (((cfg0.win 15).blk t).view.emb y) = _
  rw [V_v6]
  refine congrArg _ ?_
  obtain ⟨e0, e1⟩ := idx_w15 t
  funext a; apply Fin.ext
  match a with
  | ⟨0, _⟩ => show win0_15.index t (0 : Fin 2) * 256 + 1 * (y 0).val = (y 0).val; omega
  | ⟨1, _⟩ => show win0_15.index t (1 : Fin 2) * 256 + 1 * (y 1).val = (y 1).val; omega
theorem rd16 (c : Dev nD) (t : Fin cfg0.N) : (iblk m c 16 t : S256.Idx → EReal) = m ((c : Thread nD τ).loc main_arg16) := by
  funext y
  show V m c main_arg16 (((cfg0.win 16).blk t).view.emb y) = _
  rw [V_main_arg16]
  refine congrArg _ ?_
  have e0 := idx_w16 t
  funext a; apply Fin.ext
  match a with
  | ⟨0, _⟩ => show win0_16.index t (0 : Fin 1) * 256 + 1 * (y 0).val = (y 0).val; omega
theorem rd17 (c : Dev nD) (t : Fin cfg0.N) : (iblk m c 17 t : S1x256.Idx → EReal) = m ((c : Thread nD τ).loc main_arg17) := by
  funext y
  show V m c main_v7 (((cfg0.win 17).blk t).view.emb y) = _
  rw [V_v7]
  refine congrArg _ ?_
  obtain ⟨e0, e1⟩ := idx_w17 t
  funext a; apply Fin.ext
  match a with
  | ⟨0, _⟩ => show win0_17.index t (0 : Fin 2) * 1 + 1 * (y 0).val = (y 0).val; omega
  | ⟨1, _⟩ => show win0_17.index t (1 : Fin 2) * 256 + 1 * (y 1).val = (y 1).val; omega
theorem rd18 (c : Dev nD) (t : Fin cfg0.N) : (iblk m c 18 t : S1.Idx → EReal) = m ((c : Thread nD τ).loc main_arg18) := by
  funext y
  show V m c main_arg18 (((cfg0.win 18).blk t).view.emb y) = _
  rw [V_main_arg18]
  refine congrArg _ ?_
  have e0 := idx_w18 t
  funext a; apply Fin.ext
  match a with
  | ⟨0, _⟩ => show win0_18.index t (0 : Fin 1) * 1 + 1 * (y 0).val = (y 0).val; omega

/-! ## The two result arrays -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The logits array after the run: the specification's logits of the argument arrays. -/
abbrev G20 (c : Dev nD) : S1024x128x128.Idx → EReal :=
  Cert.Spec.aw (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10))

/-- The value array after the run, as the [1024, 128] array the kernel writes. -/
abbrev G19 (c : Dev nD) : S1024x128.Idx → EReal := fun i =>
  Cert.Spec.value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (ix3 (i 0) (i 1) (0 : Fin 1))

/-- Where an element of point t's logits block sits in the array. -/
theorem emb20 (t : Fin cfg0.N) (bb : Fin 16) (n j : Fin 128) :
    ((cfg0.win 20).blk t).view.emb (ix3 bb n j) = ix3 (gidx t bb) n j := by
  obtain ⟨-, -, -, -, -, -, -, -, -, -, -, a0, a1, a2⟩ := idx_facts t
  funext a; apply Fin.ext
  match a with
  | ⟨0, _⟩ => show win0_20.index t (0 : Fin 3) * 16 + 1 * bb.val = t.val * 16 + bb.val; omega
  | ⟨1, _⟩ => show win0_20.index t (1 : Fin 3) * 128 + 1 * n.val = n.val; omega
  | ⟨2, _⟩ => show win0_20.index t (2 : Fin 3) * 128 + 1 * j.val = j.val; omega

/-- Where an element of point t's value block sits in the array. -/
theorem emb19 (t : Fin cfg0.N) (bb : Fin 16) (n : Fin 128) :
    ((cfg0.win 19).blk t).view.emb (ix2 bb n) = ix2 (gidx t bb) n := by
  obtain ⟨-, -, -, -, -, -, -, -, -, a0, a1, -⟩ := idx_facts t
  funext a; apply Fin.ext
  match a with
  | ⟨0, _⟩ => show win0_19.index t (0 : Fin 2) * 16 + 1 * bb.val = t.val * 16 + bb.val; omega
  | ⟨1, _⟩ => show win0_19.index t (1 : Fin 2) * 128 + 1 * n.val = n.val; omega

/-- What point t writes back to the logits array is block t of the specification's logits. -/
theorem flushed20_eq (B20 : Cert.KStmt.Block20) (c : Dev nD) (t : Fin cfg0.N) :
    (dats m 0 c).flushed 20 t = ((cfg0.win 20).blk t).view.read (Elt Ideal) (G20 m c) := by
  show (cfg0.win 20).cut (grid0.coords t) ((dats m 0 c).after 20 t) = _
  rw [after0_20]
  unfold out0_20
  rw [View.canon_unit_zero hz3]
  simp only [View.ld_unit_zero (S := S16x128x64) hz3, View.ld_unit_zero (S := S16x128x128) hz3, View.ld_unit_zero (S := S256x64) hz2,
    View.ld_unit_zero (S := S256x256) hz2, View.ld_unit_zero (S := S256) hz1]
  rw [rd3 m c t, rd4 m c t, rd7 m c t, rd8 m c t, rd9 m c t, rd10 m c t]
  funext j
  obtain ⟨bb, n, jj, rfl⟩ : ∃ (bb : Fin 16) (n : Fin 128) (jj : Fin 128), j = ix3 bb n jj := ⟨j 0, j 1, j 2, eq_ix3 j⟩
  show k0_pay6 (F := Ideal) (k0_pay4 (iblk m c 0 t) (m ((c : Thread nD τ).loc main_arg3)) (m ((c : Thread nD τ).loc main_arg4)) (m ((c : Thread nD τ).loc main_arg9)) (m ((c : Thread nD τ).loc main_arg10)))
      (k0_pay5 (iblk m c 0 t) (m ((c : Thread nD τ).loc main_arg3)) (m ((c : Thread nD τ).loc main_arg4)) (m ((c : Thread nD τ).loc main_arg7))) (m ((c : Thread nD τ).loc main_arg8)) (iblk m c 1 t) (ix3 bb n jj)
    = G20 m c (((cfg0.win 20).blk t).view.emb (ix3 bb n jj))
  rw [emb20 t bb n jj]
  exact B20 (gidx t) (m ((c : Thread nD τ).loc main_arg0)) (m ((c : Thread nD τ).loc main_arg1)) (iblk m c 0 t) (iblk m c 1 t) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10))
    (rd0 m c t) (rd1 m c t) bb n jj

/-- What point t writes back to the value array is block t of the specification's values. -/
theorem flushed19_eq (B19 : Cert.KStmt.Block19) (c : Dev nD) (t : Fin cfg0.N) :
    (dats m 0 c).flushed 19 t = ((cfg0.win 19).blk t).view.read (Elt Ideal) (G19 m c) := by
  show (cfg0.win 19).cut (grid0.coords t) ((dats m 0 c).after 19 t) = _
  rw [after0_19]
  unfold out0_19
  rw [View.canon_unit_zero hz2]
  simp only [View.ld_unit_zero (S := S16x128x64) hz3, View.ld_unit_zero (S := S16x128x128) hz3, View.ld_unit_zero (S := S16x128x1) hz3,
    View.ld_unit_zero (S := S256x64) hz2, View.ld_unit_zero (S := S256x256) hz2, View.ld_unit_zero (S := S256x257) hz2,
    View.ld_unit_zero (S := S1x256) hz2, View.ld_unit_zero (S := S256) hz1, View.ld_unit_zero (S := S1) hz1]
  rw [rd3 m c t, rd4 m c t, rd5 m c t, rd6 m c t, rd7 m c t, rd8 m c t, rd9 m c t, rd10 m c t, rd11 m c t, rd12 m c t,
    rd13 m c t, rd14 m c t, rd15 m c t, rd16 m c t, rd17 m c t, rd18 m c t]
  funext j
  obtain ⟨bb, n, rfl⟩ : ∃ (bb : Fin 16) (n : Fin 128), j = ix2 bb n := ⟨j 0, j 1, eq_ix2 j⟩
  show k0_pay1 (F := Ideal)
      (k0_pay8 (k0_pay7 (k0_pay3 (iblk m c 0 t) (m ((c : Thread nD τ).loc main_arg3)) (m ((c : Thread nD τ).loc main_arg4)) (m ((c : Thread nD τ).loc main_arg5)) (m ((c : Thread nD τ).loc main_arg6))) (k0_pay4 (iblk m c 0 t) (m ((c : Thread nD τ).loc main_arg3)) (m ((c : Thread nD τ).loc main_arg4)) (m ((c : Thread nD τ).loc main_arg9)) (m ((c : Thread nD τ).loc main_arg10)))
          (k0_pay5 (iblk m c 0 t) (m ((c : Thread nD τ).loc main_arg3)) (m ((c : Thread nD τ).loc main_arg4)) (m ((c : Thread nD τ).loc main_arg7))) (m ((c : Thread nD τ).loc main_arg8)) (iblk m c 1 t))
        (iblk m c 2 t) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
      (k0_pay9 (m ((c : Thread nD τ).loc main_arg18))) (k0_pay10 (m ((c : Thread nD τ).loc main_arg17))) (ix2 bb n)
    = G19 m c (((cfg0.win 19).blk t).view.emb (ix2 bb n))
  rw [emb19 t bb n]
  exact B19 (gidx t) (m ((c : Thread nD τ).loc main_arg0)) (m ((c : Thread nD τ).loc main_arg1)) (m ((c : Thread nD τ).loc main_arg2)) (iblk m c 0 t) (iblk m c 1 t) (iblk m c 2 t) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (rd0 m c t) (rd1 m c t) (rd2 m c t) bb n

/-! ## The blocks tile the arrays -/

theorem mem_blk20 (t : Fin cfg0.N) (i : S1024x128x128.Idx) :
    i ∈ ((cfg0.win 20).blk t).view.set ↔ ∀ a : Fin 3, win0_20.index t a * S16x128x128.size a ≤ (i a).val ∧ (i a).val < win0_20.index t a * S16x128x128.size a + S16x128x128.size a := by
  show i ∈ ((View.whole main_v8_1).slice (win0_20.rect t)).set ↔ _
  rw [View.set_slice_whole, Rect.mem_set_unit]
  exact Iff.rfl

theorem mem_blk19 (t : Fin cfg0.N) (i : S1024x128.Idx) :
    i ∈ ((cfg0.win 19).blk t).view.set ↔ ∀ a : Fin 2, win0_19.index t a * S16x128.size a ≤ (i a).val ∧ (i a).val < win0_19.index t a * S16x128.size a + S16x128.size a := by
  show i ∈ ((View.whole main_v8_0).slice (win0_19.rect t)).set ↔ _
  rw [View.set_slice_whole, Rect.mem_set_unit]
  exact Iff.rfl

/-- Graph g lies in the block of point g / 16. -/
theorem cover20 (i : S1024x128x128.Idx) :
    ∃ t : Fin cfg0.N, (cfg0.win 20).flush t = true ∧ i ∈ ((cfg0.win 20).blk t).view.set := by
  have hi0 : (i 0).val < 1024 := (i 0).isLt
  have hi1 : (i 1).val < 128 := (i 1).isLt
  have hi2 : (i 2).val < 128 := (i 2).isLt
  have hN : (i 0).val / 16 < cfg0.N := lt_of_lt_of_eq (by omega : (i 0).val / 16 < 64) N_0.symm
  refine ⟨⟨(i 0).val / 16, hN⟩, flush0_20 _, ?_⟩
  rw [mem_blk20]
  obtain ⟨-, -, -, -, -, -, -, -, -, -, -, a0, a1, a2⟩ := idx_facts ⟨(i 0).val / 16, hN⟩
  have a0' : win0_20.index ⟨(i 0).val / 16, hN⟩ (0 : Fin 3) = (i 0).val / 16 := a0
  intro a
  match a with
  | ⟨0, _⟩ => show win0_20.index ⟨(i 0).val / 16, hN⟩ (0 : Fin 3) * 16 ≤ (i 0).val ∧ (i 0).val < win0_20.index ⟨(i 0).val / 16, hN⟩ (0 : Fin 3) * 16 + 16; omega
  | ⟨1, _⟩ => show win0_20.index ⟨(i 0).val / 16, hN⟩ (1 : Fin 3) * 128 ≤ (i 1).val ∧ (i 1).val < win0_20.index ⟨(i 0).val / 16, hN⟩ (1 : Fin 3) * 128 + 128; omega
  | ⟨2, _⟩ => show win0_20.index ⟨(i 0).val / 16, hN⟩ (2 : Fin 3) * 128 ≤ (i 2).val ∧ (i 2).val < win0_20.index ⟨(i 0).val / 16, hN⟩ (2 : Fin 3) * 128 + 128; omega

theorem cover19 (i : S1024x128.Idx) :
    ∃ t : Fin cfg0.N, (cfg0.win 19).flush t = true ∧ i ∈ ((cfg0.win 19).blk t).view.set := by
  have hi0 : (i 0).val < 1024 := (i 0).isLt
  have hi1 : (i 1).val < 128 := (i 1).isLt
  have hN : (i 0).val / 16 < cfg0.N := lt_of_lt_of_eq (by omega : (i 0).val / 16 < 64) N_0.symm
  refine ⟨⟨(i 0).val / 16, hN⟩, flush0_19 _, ?_⟩
  rw [mem_blk19]
  obtain ⟨-, -, -, -, -, -, -, -, -, a0, a1, -⟩ := idx_facts ⟨(i 0).val / 16, hN⟩
  have a0' : win0_19.index ⟨(i 0).val / 16, hN⟩ (0 : Fin 2) = (i 0).val / 16 := a0
  intro a
  match a with
  | ⟨0, _⟩ => show win0_19.index ⟨(i 0).val / 16, hN⟩ (0 : Fin 2) * 16 ≤ (i 0).val ∧ (i 0).val < win0_19.index ⟨(i 0).val / 16, hN⟩ (0 : Fin 2) * 16 + 16; omega
  | ⟨1, _⟩ => show win0_19.index ⟨(i 0).val / 16, hN⟩ (1 : Fin 2) * 128 ≤ (i 1).val ∧ (i 1).val < win0_19.index ⟨(i 0).val / 16, hN⟩ (1 : Fin 2) * 128 + 128; omega

/-- After the run the logits array is the specification's logits. -/
theorem final20 (B20 : Cert.KStmt.Block20) (c : Dev nD) : (dats m 0 c).arrAt 20 cfg0.N = G20 m c :=
  (dats m 0 c).arrAt_eq_of_cover 20 (G20 m c) (fun t _ => flushed20_eq m B20 c t) cover20

/-- After the run the value array is the specification's values. -/
theorem final19 (B19 : Cert.KStmt.Block19) (c : Dev nD) : (dats m 0 c).arrAt 19 cfg0.N = G19 m c :=
  (dats m 0 c).arrAt_eq_of_cover 19 (G19 m c) (fun t _ => flushed19_eq m B19 c t) cover19

/-! ## The host line after the region, and the run -/

/-- The last line of the program views the [1024, 128] value array as [1024, 128, 1]: entry (b, n, 0) is entry (b, n). -/
theorem tail_v9 (B19 : Cert.KStmt.Block19) (c : Dev nD) :
    Pipeline.afterTail₀ cfgs (dats m) 0 (V0 m) [hostOps1] c main_v9
      = Cert.Spec.value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  unfold Pipeline.afterTail₀
  show StableHlo.after hostOps1 _ (Proc.devRef .tc main_v9) = _
  after_results
  rw [Pipeline.withArrays_arr spec0 launch0.win.arr_inj c _ _ 19, final19 m B19 c]
  funext i
  obtain ⟨b, n, u, rfl⟩ : ∃ (b : Fin 1024) (n : Fin 128) (u : Fin 1), i = ix3 b n u := ⟨i 0, i 1, i 2, eq_ix3 i⟩
  have hu : u = 0 := Subsingleton.elim _ _
  subst hu
  refine (broadcastInDim_apply _ bcast_S1024x128_S1024x128x1_0_1 (G19 m c) (ix3 b n (0 : Fin 1)) (ix2 b n) (fun a => ?_)).trans rfl
  match a with
  | ⟨0, _⟩ => show b.val = if (1024 : Nat) = 1 then 0 else b.val; rw [if_neg (by decide)]
  | ⟨1, _⟩ => show n.val = if (128 : Nat) = 1 then 0 else n.val; rw [if_neg (by decide)]

/-- Every weakly fair execution of the kernel's program terminates with the value result at the specification's value,
    the logits result at the specification's logits, and the arguments unchanged. -/
theorem run (B19 : Cert.KStmt.Block19) (B20 : Cert.KStmt.Block20) :
    θ_run defs (onTc (τ := τ) (main (F := Ideal))) ⟨m, fun _ => 0, ρ⟩ (fun r => ∀ c : Dev nD,
      r.2.mem ((c.tc : Thread nD τ).loc main_v9) = Cert.Spec.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v8_1) = Cert.Spec.aw (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_v9 (Pipeline.mem_restRefs_of main_v9 (by decide) (by decide))).trans (tail_v9 m B19 c),
      ((h c).1 20).trans (final20 m B20 c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).1 12).trans (((dats m 0 c).arrAt_in 12 rfl _).trans ((A_eq m c 12).trans (V_main_arg12 m c))),
      ((h c).2 main_arg13 (Pipeline.mem_restRefs_of main_arg13 (by decide) (by decide))).trans (W_main_arg13 m (dats m) c),
      ((h c).1 14).trans (((dats m 0 c).arrAt_in 14 rfl _).trans ((A_eq m c 14).trans (V_main_arg14 m c))),
      ((h c).2 main_arg15 (Pipeline.mem_restRefs_of main_arg15 (by decide) (by decide))).trans (W_main_arg15 m (dats m) c),
      ((h c).1 16).trans (((dats m 0 c).arrAt_in 16 rfl _).trans ((A_eq m c 16).trans (V_main_arg16 m c))),
      ((h c).2 main_arg17 (Pipeline.mem_restRefs_of main_arg17 (by decide) (by decide))).trans (W_main_arg17 m (dats m) c),
      ((h c).1 18).trans (((dats m 0 c).arrAt_in 18 rfl _).trans ((A_eq m c 18).trans (V_main_arg18 m c)))⟩) (run_main m ρ)

end Cert.KValue

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.KDense.lean ====
/-
  The kernel's dense layers read at one entry.

  The kernel works on a block of sixteen graphs and keeps their 16 · 128 nodes as the rows of a matrix: row
  r = bb · 128 + n holds node n of the block's graph bb, which is graph e bb of the batch. A dense layer there is a
  matrix product with the transposed weight matrix, (Wᵀ)[k, h] = W[h, k], taken into a zero accumulator, plus the bias
  row, followed by the rectifier. Read at (r, h) and at the exact (extended real) reading of floats, where format
  changes are the identity, this is max (∑ k, x[r, k] · W[h, k] + β[h]) 0: the specification's dense layer at
  (e bb, n, h). This file proves that for one layer in general, then for the encoder and the three projections of the
  encoded observations.
-/
import proofs.«156557_j56143812493412_2_alg».proof.Proof.Gen.KernelIdeal.Skeleton
import proofs.«156557_j56143812493412_2_alg».proof.Proof.Spec
import proofs.«156557_j56143812493412_2_alg».proof.Proof.LibPlainContract
import proofs.«156557_j56143812493412_2_alg».proof.Proof.LibLayout3
import Idealize.ShloMosaic.PureOps.Ideal.Laws
import Idealize.ShloMosaic.Lib.ValueIdx
import Idealize.ShloMosaic.Lib.Pipeline.Value
import Idealize.ShloMosaic.Lib.ValueLayout

noncomputable section

namespace Cert.KDense

open Cert.KernelIdeal Cert.KernelIdeal.Gen Idealize.ShloMosaic Idealize.ShloMosaic.ValueIdx

/-- The bias row: a vector cast to one row and broadcast over all rows reads, at (r, h), the vector at h. -/
theorem biasRow_apply {α : Type} {m b : ℕ} (β : (⟨1, ![b]⟩ : Shape).Idx → α)
    (hc : (⟨1, ![b]⟩ : Shape).ShapeCasts ⟨2, ![1, b]⟩) (hb : (⟨2, ![1, b]⟩ : Shape).Broadcasts ⟨2, ![m, b]⟩)
    (r : Fin m) (h : Fin b) :
    broadcastTo ⟨2, ![m, b]⟩ (shapeCast ⟨2, ![1, b]⟩ β hc) hb (ix2 r h) = β (ix1 h) :=
  (broadcastTo_1b_ab_apply _ hb r h).trans (shapeCast_a_1a_apply β hc 0 h)

/-- The transposed weights: (Wᵀ)[k, h] = W[h, k], through an identity cast. -/
theorem weightT_apply {α : Type} {n K : ℕ} (W : (⟨2, ![n, K]⟩ : Shape).Idx → α)
    (hc : (⟨2, ![n, K]⟩ : Shape).ShapeCasts ⟨2, ![n, K]⟩) (ht : (⟨2, ![n, K]⟩ : Shape).Transposes [1, 0] ⟨2, ![K, n]⟩)
    (k : Fin K) (h : Fin n) :
    transpose ⟨2, ![K, n]⟩ [1, 0] (shapeCast ⟨2, ![n, K]⟩ W hc) ht (ix2 k h) = W (ix2 h k) :=
  (transpose_ix2_apply _ ht k h).trans (congrFun (shapeCast_self W hc) _)

/-- The matrix product with the transposed weights into the zero accumulator, at (r, h): ∑ k, x[r, k] · W[h, k]. -/
theorem matmulT_at {K : ℕ} {φ ψ : FTy} (Xk : FVec Ideal ⟨2, ![2048, K]⟩ φ) (W : FVec Ideal ⟨2, ![256, K]⟩ ψ)
    (hc : (⟨2, ![256, K]⟩ : Shape).ShapeCasts ⟨2, ![256, K]⟩)
    (ht : (⟨2, ![256, K]⟩ : Shape).Transposes [1, 0] ⟨2, ![K, 256]⟩)
    (r : Fin 2048) (h : Fin 256) :
    matmul (DotDims.plain 2048 K 256) none Xk
        (transpose ⟨2, ![K, 256]⟩ [1, 0] (shapeCast ⟨2, ![256, K]⟩ W hc) ht)
        (constant ⟨2, ![2048, 256]⟩ .f32 0x00000000#32) (ix2 r h)
      = ∑ k : Fin K, Xk (ix2 r k) * W (ix2 h k) :=
  (Cert.LibPlainContract.matmul_plain_apply 2048 K 256 none Xk _ r h).trans
    (Finset.sum_congr rfl fun k _ => congrArg (Xk (ix2 r k) * ·) (weightT_apply W hc ht k h))

/-- A dense layer of the kernel at (r, h): the matrix product with the transposed weights into the zero
    accumulator, the bias row added, the rectifier. -/
theorem dense_at {K : ℕ} {φ ψ : FTy} (Xk : FVec Ideal ⟨2, ![2048, K]⟩ φ) (W : FVec Ideal ⟨2, ![256, K]⟩ ψ)
    (β : FVec Ideal ⟨1, ![256]⟩ .f32)
    (hc : (⟨2, ![256, K]⟩ : Shape).ShapeCasts ⟨2, ![256, K]⟩)
    (ht : (⟨2, ![256, K]⟩ : Shape).Transposes [1, 0] ⟨2, ![K, 256]⟩)
    (hc' : (⟨1, ![256]⟩ : Shape).ShapeCasts ⟨2, ![1, 256]⟩)
    (hb : (⟨2, ![1, 256]⟩ : Shape).Broadcasts ⟨2, ![2048, 256]⟩)
    (r : Fin 2048) (h : Fin 256) :
    maximumf
        (addf
          (matmul (DotDims.plain 2048 K 256) none Xk
            (transpose ⟨2, ![K, 256]⟩ [1, 0] (shapeCast ⟨2, ![256, K]⟩ W hc) ht)
            (constant ⟨2, ![2048, 256]⟩ .f32 0x00000000#32))
          (broadcastTo ⟨2, ![2048, 256]⟩ (shapeCast ⟨2, ![1, 256]⟩ β hc') hb))
        (broadcast ⟨2, ![2048, 256]⟩ (Scalar.ofBits .f32 0x00000000#32)) (ix2 r h)
      = max (∑ k : Fin K, Xk (ix2 r k) * W (ix2 h k) + β (ix1 h)) Cert.Spec.zero := by
  refine (maximumf_apply _ _ _).trans ?_
  refine congrArg (fun t => max t Cert.Spec.zero) ?_
  refine (addf_apply _ _ _).trans ?_
  exact congrArg₂ (· + ·) (matmulT_at Xk W hc ht r h) (biasRow_apply β hc' hb r h)

/-- The same layer against the specification: when row r of the input holds graph b, node n of Y, entry (r, h) of the
    output is the specification's dense layer of Y at (b, n, h). -/
theorem dense_at_spec {K : ℕ} {φ ψ : FTy} (Xk : FVec Ideal ⟨2, ![2048, K]⟩ φ) (W : FVec Ideal ⟨2, ![256, K]⟩ ψ)
    (β : FVec Ideal ⟨1, ![256]⟩ .f32)
    (hc : (⟨2, ![256, K]⟩ : Shape).ShapeCasts ⟨2, ![256, K]⟩)
    (ht : (⟨2, ![256, K]⟩ : Shape).Transposes [1, 0] ⟨2, ![K, 256]⟩)
    (hc' : (⟨1, ![256]⟩ : Shape).ShapeCasts ⟨2, ![1, 256]⟩)
    (hb : (⟨2, ![1, 256]⟩ : Shape).Broadcasts ⟨2, ![2048, 256]⟩)
    (Y : Cert.Spec.Arr3 1024 128 K) (b : Fin 1024) (n : Fin 128) (r : Fin 2048)
    (hX : ∀ k : Fin K, Xk (ix2 r k) = Y (ix3 b n k)) (h : Fin 256) :
    maximumf
        (addf
          (matmul (DotDims.plain 2048 K 256) none Xk
            (transpose ⟨2, ![K, 256]⟩ [1, 0] (shapeCast ⟨2, ![256, K]⟩ W hc) ht)
            (constant ⟨2, ![2048, 256]⟩ .f32 0x00000000#32))
          (broadcastTo ⟨2, ![2048, 256]⟩ (shapeCast ⟨2, ![1, 256]⟩ β hc') hb))
        (broadcast ⟨2, ![2048, 256]⟩ (Scalar.ofBits .f32 0x00000000#32)) (ix2 r h)
      = Cert.Spec.dense Y W β (ix3 b n h) :=
  (dense_at Xk W β hc ht hc' hb r h).trans
    ((congrArg (fun t => max (t + β (ix1 h)) Cert.Spec.zero)
        (Finset.sum_congr rfl fun k _ => congrArg (· * W (ix2 h k)) (hX k))).trans
      (Cert.Spec.dense_apply Y W β b n h).symm)

/-- The encoder at (r, h): a dense layer on the block's observations, row r = bb·128 + n holding graph e bb, node n. -/
theorem pay2_apply (e : Fin 16 → Fin 1024) (X : Cert.Spec.Arr3 1024 128 64) (x0 : Vec Ideal S16x128x64 .f32)
    (We : Vec Ideal S256x64 .bf16) (be : Vec Ideal S256 .f32)
    (hx : ∀ (bb : Fin 16) (n : Fin 128) (d : Fin 64), x0 (ix3 bb n d) = X (ix3 (e bb) n d))
    (bb : Fin 16) (n : Fin 128) (r : Fin 2048) (hr : r.val = bb.val * 128 + n.val) (h : Fin 256) :
    k0_pay2 (F := Ideal) x0 We be (ix2 r h) = Cert.Spec.dense X We be (ix3 (e bb) n h) :=
  dense_at_spec (φ := .bf16) (ψ := .bf16)
    (shapeCast S2048x64 (truncf .bf16 x0 bitsLt_bf16_f32) shapeCasts_S16x128x64_S2048x64) We be
    shapeCasts_S256x64_S256x64 transposes_S256x64_p1_0_S64x256 shapeCasts_S256_S1x256 broadcasts_S1x256_S2048x256
    X (e bb) n r
    (fun k => (Cert.LibLayout3.shapeCast_abc_mc_apply _ shapeCasts_S16x128x64_S2048x64 bb n k r hr).trans (hx bb n k)) h

/-- A projection of the encoded observations (the values) at (r, h). -/
theorem pay3_apply (e : Fin 16 → Fin 1024) (X : Cert.Spec.Arr3 1024 128 64) (x0 : Vec Ideal S16x128x64 .f32)
    (We : Vec Ideal S256x64 .bf16) (be : Vec Ideal S256 .f32)
    (hx : ∀ (bb : Fin 16) (n : Fin 128) (d : Fin 64), x0 (ix3 bb n d) = X (ix3 (e bb) n d))
    (W : Vec Ideal S256x256 .bf16) (β : Vec Ideal S256 .f32)
    (bb : Fin 16) (n : Fin 128) (r : Fin 2048) (hr : r.val = bb.val * 128 + n.val) (h : Fin 256) :
    k0_pay3 (F := Ideal) x0 We be W β (ix2 r h)
      = Cert.Spec.dense (Cert.Spec.dense X We be) W β (ix3 (e bb) n h) :=
  dense_at_spec (φ := .bf16) (ψ := .bf16) (k0_pay2 (F := Ideal) x0 We be) W β
    shapeCasts_S256x256_S256x256 transposes_S256x256_p1_0_S256x256 shapeCasts_S256_S1x256 broadcasts_S1x256_S2048x256
    (Cert.Spec.dense X We be) (e bb) n r (fun k => pay2_apply e X x0 We be hx bb n r hr k) h

/-- A second projection of the encoded observations (the keys) at (r, h): the same layer with its own weights. -/
theorem pay4_apply (e : Fin 16 → Fin 1024) (X : Cert.Spec.Arr3 1024 128 64) (x0 : Vec Ideal S16x128x64 .f32)
    (We : Vec Ideal S256x64 .bf16) (be : Vec Ideal S256 .f32)
    (hx : ∀ (bb : Fin 16) (n : Fin 128) (d : Fin 64), x0 (ix3 bb n d) = X (ix3 (e bb) n d))
    (W : Vec Ideal S256x256 .bf16) (β : Vec Ideal S256 .f32)
    (bb : Fin 16) (n : Fin 128) (r : Fin 2048) (hr : r.val = bb.val * 128 + n.val) (h : Fin 256) :
    k0_pay4 (F := Ideal) x0 We be W β (ix2 r h)
      = Cert.Spec.dense (Cert.Spec.dense X We be) W β (ix3 (e bb) n h) :=
  dense_at_spec (φ := .bf16) (ψ := .bf16) (k0_pay2 (F := Ideal) x0 We be) W β
    shapeCasts_S256x256_S256x256 transposes_S256x256_p1_0_S256x256 shapeCasts_S256_S1x256 broadcasts_S1x256_S2048x256
    (Cert.Spec.dense X We be) (e bb) n r (fun k => pay2_apply e X x0 We be hx bb n r hr k) h

/-- The third projection (the queries) leaves the kernel's first part as the bare matrix product; with the bias added
    and the rectifier applied it is the specification's dense layer. -/
theorem pay5_bias_apply (e : Fin 16 → Fin 1024) (X : Cert.Spec.Arr3 1024 128 64) (x0 : Vec Ideal S16x128x64 .f32)
    (We : Vec Ideal S256x64 .bf16) (be : Vec Ideal S256 .f32)
    (hx : ∀ (bb : Fin 16) (n : Fin 128) (d : Fin 64), x0 (ix3 bb n d) = X (ix3 (e bb) n d))
    (W : Vec Ideal S256x256 .bf16) (β : Vec Ideal S256 .f32)
    (bb : Fin 16) (n : Fin 128) (r : Fin 2048) (hr : r.val = bb.val * 128 + n.val) (h : Fin 256) :
    max (k0_pay5 (F := Ideal) x0 We be W (ix2 r h) + β (ix1 h)) Cert.Spec.zero
      = Cert.Spec.dense (Cert.Spec.dense X We be) W β (ix3 (e bb) n h) :=
  (congrArg (fun t => max (t + β (ix1 h)) Cert.Spec.zero)
      ((matmulT_at (φ := .bf16) (ψ := .bf16) (k0_pay2 (F := Ideal) x0 We be) W
          shapeCasts_S256x256_S256x256 transposes_S256x256_p1_0_S256x256 r h).trans
        (Finset.sum_congr rfl fun k _ => congrArg (· * W (ix2 h k)) (pay2_apply e X x0 We be hx bb n r hr k)))).trans
    (Cert.Spec.dense_apply (Cert.Spec.dense X We be) W β (e bb) n h).symm

end Cert.KDense

end
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.KDenseTail.lean ====
/-
  The kernel's critic layers read at one entry.

  After the attention, the kernel appends the action to the 256 attended features of every node (a 257th feature),
  merges the block's sixteen graphs into the rows of one matrix (row r = bb · 128 + n), and runs three dense layers;
  the width-1 output layer is then a product with the weight row, summed along the features, plus the bias, and the
  2048 results are laid out again as sixteen rows of 128 nodes. At the exact (extended real) reading of floats each
  step is the specification's: the concatenation, the three dense layers, the head.
-/
import proofs.«156557_j56143812493412_2_alg».proof.Proof.KDense
import proofs.«156557_j56143812493412_2_alg».proof.Proof.LibColumn

noncomputable section

namespace Cert.KDense

open Cert.KernelIdeal Cert.KernelIdeal.Gen Idealize.ShloMosaic Idealize.ShloMosaic.ValueIdx

/-- The attended features with the action appended along the last axis, at (bb, n, k): feature k of the attended
    values for k < 256, the action for k = 256. -/
theorem cat_at (e : Fin 16 → Fin 1024) (H : Cert.Spec.Arr3 1024 128 256) (A : Cert.Spec.Arr3 1024 128 1)
    (h3 : FVec Ideal S16x128x256 .f32) (a : Vec Ideal S16x128x1 .f32)
    (hh : ∀ (bb : Fin 16) (n : Fin 128) (c : Fin 256), h3 (ix3 bb n c) = H (ix3 (e bb) n c))
    (ha : ∀ (bb : Fin 16) (n : Fin 128) (u : Fin 1), a (ix3 bb n u) = A (ix3 (e bb) n u))
    (bb : Fin 16) (n : Fin 128) (k : Fin 257) :
    concatenate S16x128x257 2 [⟨S16x128x256, h3⟩, ⟨S16x128x1, a⟩]
        concatenates_S16x128x256_S16x128x1_S16x128x257_d2 (ix3 bb n k)
      = Cert.Spec.cat H A (ix3 (e bb) n k) := by
  rw [Cert.Spec.cat_apply]
  by_cases hk : k.val < 256
  · rw [dif_pos hk]
    refine (concatenate_pair_apply_left (2 : Fin 3) h3 a concatenates_S16x128x256_S16x128x1_S16x128x257_d2
      (ix3 bb n k) rfl (ix3 bb n ⟨k.val, hk⟩) fun b => ?_).trans (hh bb n ⟨k.val, hk⟩)
    match b with
    | ⟨0, _⟩ => rfl
    | ⟨1, _⟩ => rfl
    | ⟨2, _⟩ => rfl
  · rw [dif_neg hk]
    refine (concatenate_pair_apply_right (2 : Fin 3) h3 a concatenates_S16x128x256_S16x128x1_S16x128x257_d2
      (ix3 bb n k) rfl rfl (ix3 bb n (0 : Fin 1)) (fun b hb => ?_) ?_).trans (ha bb n 0)
    · match b with
      | ⟨0, _⟩ => rfl
      | ⟨1, _⟩ => rfl
      | ⟨2, _⟩ => exact absurd rfl hb
    · show 0 + 256 = k.val
      have := k.isLt
      omega

/-- The critic's three dense layers on the concatenated features, at (r, h). -/
theorem pay8_apply (e : Fin 16 → Fin 1024) (H : Cert.Spec.Arr3 1024 128 256) (A : Cert.Spec.Arr3 1024 128 1)
    (h3 : FVec Ideal S16x128x256 .f32) (a : Vec Ideal S16x128x1 .f32)
    (W1 : Vec Ideal S256x257 .bf16) (b1 : Vec Ideal S256 .f32) (W2 : Vec Ideal S256x256 .bf16) (b2 : Vec Ideal S256 .f32)
    (W3 : Vec Ideal S256x256 .bf16) (b3 : Vec Ideal S256 .f32)
    (hh : ∀ (bb : Fin 16) (n : Fin 128) (c : Fin 256), h3 (ix3 bb n c) = H (ix3 (e bb) n c))
    (ha : ∀ (bb : Fin 16) (n : Fin 128) (u : Fin 1), a (ix3 bb n u) = A (ix3 (e bb) n u))
    (bb : Fin 16) (n : Fin 128) (r : Fin 2048) (hr : r.val = bb.val * 128 + n.val) (h : Fin 256) :
    k0_pay8 (F := Ideal) h3 a W1 b1 W2 b2 W3 b3 (ix2 r h)
      = Cert.Spec.dense (Cert.Spec.dense (Cert.Spec.dense (Cert.Spec.cat H A) W1 b1) W2 b2) W3 b3 (ix3 (e bb) n h) := by
  refine dense_at_spec (φ := .bf16) (ψ := .bf16) _ W3 b3
    shapeCasts_S256x256_S256x256 transposes_S256x256_p1_0_S256x256 shapeCasts_S256_S1x256 broadcasts_S1x256_S2048x256
    (Cert.Spec.dense (Cert.Spec.dense (Cert.Spec.cat H A) W1 b1) W2 b2) (e bb) n r (fun k2 => ?_) h
  refine dense_at_spec (φ := .bf16) (ψ := .bf16) _ W2 b2
    shapeCasts_S256x256_S256x256 transposes_S256x256_p1_0_S256x256 shapeCasts_S256_S1x256 broadcasts_S1x256_S2048x256
    (Cert.Spec.dense (Cert.Spec.cat H A) W1 b1) (e bb) n r (fun k1 => ?_) k2
  refine dense_at_spec (φ := .bf16) (ψ := .bf16) _ W1 b1
    shapeCasts_S256x257_S256x257 transposes_S256x257_p1_0_S257x256 shapeCasts_S256_S1x256 broadcasts_S1x256_S2048x256
    (Cert.Spec.cat H A) (e bb) n r (fun k0 => ?_) k1
  exact (Cert.LibLayout3.shapeCast_abc_mc_apply _ shapeCasts_S16x128x257_S2048x257 bb n k0 r hr).trans
    (cat_at e H A h3 a hh ha bb n k0)

/-- A vector of length a·b cast to [a, b] reads, at (p, q), the vector at p·b + q. -/
theorem shapeCast_m_ab_apply {α : Type} {a b m : ℕ} (x : (⟨1, ![m]⟩ : Shape).Idx → α)
    (h : (⟨1, ![m]⟩ : Shape).ShapeCasts ⟨2, ![a, b]⟩) (p : Fin a) (q : Fin b) (r : Fin m)
    (hr : r.val = p.val * b + q.val) : shapeCast ⟨2, ![a, b]⟩ x h (ix2 p q) = x (ix1 r) :=
  shapeCast_apply x h _ _ (by
    rw [Shape.rowMajor_val_one, Shape.rowMajor_val_two]
    exact hr)

/-- The output layer's weight row, through its casts [1, 256] → [256] → [1, 256], keeps its entries. -/
theorem pay10_apply (w4 : Vec Ideal S1x256 .bf16) (u : Fin 1) (h : Fin 256) :
    k0_pay10 (F := Ideal) w4 (ix2 u h) = w4 (ix2 (0 : Fin 1) h) := by
  show shapeCast S1x256
      (extf .f32
        (shapeCast S256 (shapeCast S1x256 (w4 : FVec Ideal S1x256 .bf16) shapeCasts_S1x256_S1x256)
          shapeCasts_S1x256_S256 : FVec Ideal S256 .bf16)
        bitsLt_bf16_f32 : FVec Ideal S256 .f32)
      shapeCasts_S256_S1x256 (ix2 u h) = w4 (ix2 (0 : Fin 1) h)
  refine (shapeCast_a_1a_apply _ shapeCasts_S256_S1x256 u h).trans ?_
  refine (extf_apply _ bitsLt_bf16_f32 (ix1 h)).trans ?_
  refine (shapeCast_1a_a_apply _ shapeCasts_S1x256_S256 h).trans ?_
  exact congrFun (shapeCast_self w4 shapeCasts_S1x256_S1x256) _

/-- The output layer's bias as a scalar is the bias vector's one entry. -/
theorem pay9_eq (b4 : Vec Ideal S1 .f32) : k0_pay9 (F := Ideal) b4 = b4 (ix1 (0 : Fin 1)) :=
  congrArg b4 (funext fun a => match a with | ⟨0, _⟩ => rfl)

/-- The width-1 output layer at (bb, n): the row of the last hidden layer times the weight row, summed, plus the bias. -/
theorem pay1_apply (e : Fin 16 → Fin 1024) (C : Cert.Spec.Arr3 1024 128 256) (c3 : FVec Ideal S2048x256 .f32)
    (w4 : Vec Ideal S1x256 .bf16) (b4 : Vec Ideal S1 .f32)
    (hc : ∀ (bb : Fin 16) (n : Fin 128) (r : Fin 2048), r.val = bb.val * 128 + n.val →
      ∀ h : Fin 256, c3 (ix2 r h) = C (ix3 (e bb) n h))
    (bb : Fin 16) (n : Fin 128) :
    k0_pay1 (F := Ideal) c3 (k0_pay9 (F := Ideal) b4) (k0_pay10 (F := Ideal) w4) (ix2 bb n)
      = Cert.Spec.head C w4 b4 (ix3 (e bb) n (0 : Fin 1)) := by
  have hlt : bb.val * 128 + n.val < 2048 := by have := bb.isLt; have := n.isLt; omega
  show shapeCast S16x128
      (addf
        (multiReduction .add [1] S2048
          (mulf c3 (broadcastTo S2048x256 (k0_pay10 (F := Ideal) w4) broadcasts_S1x256_S2048x256) : FVec Ideal S2048x256 .f32)
          0x00000000#32 reduces_S2048x256_S2048 (.inl rfl) rfl : FVec Ideal S2048 .f32)
        (broadcast S2048 (k0_pay9 (F := Ideal) b4)) : FVec Ideal S2048 .f32)
      shapeCasts_S2048_S16x128 (ix2 bb n) = _
  refine (shapeCast_m_ab_apply _ shapeCasts_S2048_S16x128 bb n ⟨bb.val * 128 + n.val, hlt⟩ rfl).trans ?_
  refine (addf_apply _ _ _).trans ?_
  refine (congrArg₂ (· + ·) ?_ (pay9_eq b4)).trans (Cert.Spec.head_apply C w4 b4 (e bb) n 0).symm
  refine (Cert.LibColumn.laneSum_apply _ reduces_S2048x256_S2048 (.inl rfl) rfl ⟨bb.val * 128 + n.val, hlt⟩).trans ?_
  refine Finset.sum_congr rfl fun j _ => ?_
  refine (mulf_apply _ _ _).trans ?_
  exact congrArg₂ (· * ·) (hc bb n ⟨bb.val * 128 + n.val, hlt⟩ rfl j)
    ((broadcastTo_1b_ab_apply _ broadcasts_S1x256_S2048x256 _ j).trans (pay10_apply w4 0 j))

end Cert.KDense

end
-- ==== Proof.KAttn.lean ====
/-
  The attention stage of the kernel, read at one index.

  The kernel holds a block of sixteen graphs. Its two-dimensional arrays [2048, C] keep graph bb, node n at row
  bb * 128 + n. The stage
    * adds the bias to the key projection and rectifies it;
    * regroups queries, keys and values as [16, 128, 256] (format changes are the identity on extended reals);
    * contracts queries with keys over the feature axis, graph by graph:  s[bb, n, j] = ∑ d, q[bb, n, d] · k[bb, j, d];
    * masks and clamps:  l = min hi (max 0 (s · m)) − big · (1 − m);
    * takes the softmax along j: the row maximum folded from −∞ and joined with −∞ once more, the exponentials of the
      differences, their row sum, the quotient;
    * contracts the weights with the values:  ∑ j, p[bb, n, j] · v[bb, j, c].
  Each step is read at an index written by coordinates, and the whole is compared with the specification's logits,
  softmax and attended values at graph e bb, for any placement e of the block's graphs in the batch.
-/
import proofs.«156557_j56143812493412_2_alg».proof.Proof.Gen.KernelIdeal.Skeleton
import proofs.«156557_j56143812493412_2_alg».proof.Proof.Spec
import proofs.«156557_j56143812493412_2_alg».proof.Proof.LibLayout3
import Idealize.ShloMosaic.PureOps.Ideal.Laws
import Idealize.ShloMosaic.Lib.ValueIdx
import Idealize.ShloMosaic.Lib.Pipeline.Value
import Idealize.ShloMosaic.Lib.ValueLayout

noncomputable section

namespace Cert.KAttn

open Cert.KernelIdeal Cert.KernelIdeal.Gen Idealize.ShloMosaic Idealize.ShloMosaic.ValueIdx

/-- The dimension numbers of the two batched products: queries with keys (contract the feature axes, the graph axis
    shared), and weights with values (contract the weights' last axis with the values' node axis). -/
abbrev Dqk : DotDims S16x128x256 S16x128x256 S16x128x128 := dot_S16x128x256_S16x128x256_S16x128x128_2_2_1_1_0_0
abbrev Dpv : DotDims S16x128x128 S16x128x256 S16x128x256 := dot_S16x128x128_S16x128x256_S16x128x256_2_1_1_2_0_0

/-- The key projection with its bias added and the rectifier applied, at row r and feature d. -/
theorem keyAct_apply (kp2 : FVec Ideal S2048x256 .f32) (bk : Vec Ideal S256 .f32) (r : Fin 2048) (d : Fin 256) :
    (maximumf (addf kp2 (broadcastTo S2048x256 (shapeCast S1x256 bk shapeCasts_S256_S1x256) broadcasts_S1x256_S2048x256))
        (broadcast S2048x256 (Scalar.ofBits .f32 0x00000000#32)) : FVec Ideal S2048x256 .f32) (ix2 r d)
      = max (kp2 (ix2 r d) + bk (ix1 d)) Cert.Spec.zero := by
  refine (maximumf_apply _ _ _).trans ?_
  refine congrArg (fun t => max t Cert.Spec.zero) ?_
  refine (addf_apply _ _ _).trans ?_
  refine congrArg (fun t => kp2 (ix2 r d) + t) ?_
  refine (broadcastTo_1b_ab_apply _ _ r d).trans ?_
  exact shapeCast_a_1a_apply bk _ 0 d

/-! The operand indices of the query-key product: the graph is shared, the left operand is read at the result's row,
    the right operand at the result's column, and both at the contraction position. -/

theorem qk_lhs0 (i : S16x128x128.Idx) (q : Dqk.contr.Idx) : (Dqk.lhsIdx i q 0).val = (i 0).val := by
  unfold DotDims.lhsIdx
  rw [dif_pos (show (0 : Fin S16x128x256.rank) ∈ Dqk.lhsBatch by decide)]
  rfl
theorem qk_lhs1 (i : S16x128x128.Idx) (q : Dqk.contr.Idx) : (Dqk.lhsIdx i q 1).val = (i 1).val := by
  unfold DotDims.lhsIdx
  rw [dif_neg (show ¬(1 : Fin S16x128x256.rank) ∈ Dqk.lhsBatch by decide),
    dif_pos (show (1 : Fin S16x128x256.rank) ∈ Dqk.lhsNonContracting by decide)]
  rfl
theorem qk_lhs2 (i : S16x128x128.Idx) (q : Dqk.contr.Idx) : (Dqk.lhsIdx i q 2).val = (q ⟨0, by decide⟩).val :=
  Dqk.lhsIdx_val_of_single rfl i q
theorem qk_rhs0 (i : S16x128x128.Idx) (q : Dqk.contr.Idx) : (Dqk.rhsIdx i q 0).val = (i 0).val := by
  unfold DotDims.rhsIdx
  rw [dif_pos (show (0 : Fin S16x128x256.rank) ∈ Dqk.rhsBatch by decide)]
  rfl
theorem qk_rhs1 (i : S16x128x128.Idx) (q : Dqk.contr.Idx) : (Dqk.rhsIdx i q 1).val = (i 2).val := by
  unfold DotDims.rhsIdx
  rw [dif_neg (show ¬(1 : Fin S16x128x256.rank) ∈ Dqk.rhsBatch by decide),
    dif_pos (show (1 : Fin S16x128x256.rank) ∈ Dqk.rhsNonContracting by decide)]
  rfl
theorem qk_rhs2 (i : S16x128x128.Idx) (q : Dqk.contr.Idx) : (Dqk.rhsIdx i q 2).val = (q ⟨0, by decide⟩).val :=
  Dqk.rhsIdx_val_of_single rfl i q

/-- The batched product of queries and keys into the zero accumulator, at graph bb, nodes n and j: the sum over the
    256 features. -/
theorem qk_apply (A B : FVec Ideal S16x128x256 .bf16) (bb : Fin 16) (n j : Fin 128) :
    FloatOps.matmul Dqk none A B (constant S16x128x128 .f32 0x00000000#32) (ix3 bb n j)
      = ∑ d : Fin 256, A (ix3 bb n d) * B (ix3 bb j d) := by
  refine (Ideal.matmul_constant_zero_apply Dqk none A B (ix3 bb n j)).trans ?_
  rw [← Equiv.sum_comp (contrEquiv1 Dqk 256 rfl rfl).symm]
  refine Finset.sum_congr rfl fun k _ => ?_
  have hk := contrEquiv1_symm_val Dqk 256 rfl rfl k
  have el : Dqk.lhsIdx (ix3 bb n j) ((contrEquiv1 Dqk 256 rfl rfl).symm k) = ix3 bb n k :=
    funext fun a => Fin.ext (by
      match a with
      | ⟨0, _⟩ => exact qk_lhs0 _ _
      | ⟨1, _⟩ => exact qk_lhs1 _ _
      | ⟨2, _⟩ => exact (qk_lhs2 _ _).trans hk)
  have er : Dqk.rhsIdx (ix3 bb n j) ((contrEquiv1 Dqk 256 rfl rfl).symm k) = ix3 bb j k :=
    funext fun a => Fin.ext (by
      match a with
      | ⟨0, _⟩ => exact qk_rhs0 _ _
      | ⟨1, _⟩ => exact qk_rhs1 _ _
      | ⟨2, _⟩ => exact (qk_rhs2 _ _).trans hk)
  rw [el, er]

/-! The operand indices of the product of weights and values: the left operand is read at the result's row and the
    contraction position, the right operand at the contraction position and the result's column. -/

theorem pv_lhs0 (i : S16x128x256.Idx) (q : Dpv.contr.Idx) : (Dpv.lhsIdx i q 0).val = (i 0).val := by
  unfold DotDims.lhsIdx
  rw [dif_pos (show (0 : Fin S16x128x128.rank) ∈ Dpv.lhsBatch by decide)]
  rfl
theorem pv_lhs1 (i : S16x128x256.Idx) (q : Dpv.contr.Idx) : (Dpv.lhsIdx i q 1).val = (i 1).val := by
  unfold DotDims.lhsIdx
  rw [dif_neg (show ¬(1 : Fin S16x128x128.rank) ∈ Dpv.lhsBatch by decide),
    dif_pos (show (1 : Fin S16x128x128.rank) ∈ Dpv.lhsNonContracting by decide)]
  rfl
theorem pv_lhs2 (i : S16x128x256.Idx) (q : Dpv.contr.Idx) : (Dpv.lhsIdx i q 2).val = (q ⟨0, by decide⟩).val :=
  Dpv.lhsIdx_val_of_single rfl i q
theorem pv_rhs0 (i : S16x128x256.Idx) (q : Dpv.contr.Idx) : (Dpv.rhsIdx i q 0).val = (i 0).val := by
  unfold DotDims.rhsIdx
  rw [dif_pos (show (0 : Fin S16x128x256.rank) ∈ Dpv.rhsBatch by decide)]
  rfl
theorem pv_rhs1 (i : S16x128x256.Idx) (q : Dpv.contr.Idx) : (Dpv.rhsIdx i q 1).val = (q ⟨0, by decide⟩).val :=
  Dpv.rhsIdx_val_of_single rfl i q
theorem pv_rhs2 (i : S16x128x256.Idx) (q : Dpv.contr.Idx) : (Dpv.rhsIdx i q 2).val = (i 2).val := by
  unfold DotDims.rhsIdx
  rw [dif_neg (show ¬(2 : Fin S16x128x256.rank) ∈ Dpv.rhsBatch by decide),
    dif_pos (show (2 : Fin S16x128x256.rank) ∈ Dpv.rhsNonContracting by decide)]
  rfl

/-- The batched product of weights and values into the zero accumulator, at graph bb, node n, feature c: the sum
    over the 128 nodes of the graph. -/
theorem pv_apply (P : FVec Ideal S16x128x128 .bf16) (V : FVec Ideal S16x128x256 .bf16) (bb : Fin 16) (n : Fin 128)
    (c : Fin 256) :
    FloatOps.matmul Dpv none P V (constant S16x128x256 .f32 0x00000000#32) (ix3 bb n c)
      = ∑ j : Fin 128, P (ix3 bb n j) * V (ix3 bb j c) := by
  refine (Ideal.matmul_constant_zero_apply Dpv none P V (ix3 bb n c)).trans ?_
  rw [← Equiv.sum_comp (contrEquiv1 Dpv 128 rfl rfl).symm]
  refine Finset.sum_congr rfl fun k _ => ?_
  have hk := contrEquiv1_symm_val Dpv 128 rfl rfl k
  have el : Dpv.lhsIdx (ix3 bb n c) ((contrEquiv1 Dpv 128 rfl rfl).symm k) = ix3 bb n k :=
    funext fun a => Fin.ext (by
      match a with
      | ⟨0, _⟩ => exact pv_lhs0 _ _
      | ⟨1, _⟩ => exact pv_lhs1 _ _
      | ⟨2, _⟩ => exact (pv_lhs2 _ _).trans hk)
  have er : Dpv.rhsIdx (ix3 bb n c) ((contrEquiv1 Dpv 128 rfl rfl).symm k) = ix3 bb k c :=
    funext fun a => Fin.ext (by
      match a with
      | ⟨0, _⟩ => exact pv_rhs0 _ _
      | ⟨1, _⟩ => exact (pv_rhs1 _ _).trans hk
      | ⟨2, _⟩ => exact pv_rhs2 _ _)
  rw [el, er]

/-- A row-wise quantity of shape [16, 128], given a unit last axis and spread along it to [16, 128, 128], reads at
    (bb, n, j) its entry (bb, n). -/
theorem keepdims_apply {α : Type} (x : S16x128.Idx → α) (bb : Fin 16) (n j : Fin 128) :
    broadcastTo S16x128x128 (shapeCast S16x128x1 x shapeCasts_S16x128_S16x128x1) broadcasts_S16x128x1_S16x128x128
        (ix3 bb n j) = x (ix2 bb n) := by
  refine (broadcastTo_apply _ broadcasts_S16x128x1_S16x128x128 (ix3 bb n j) (ix3 bb n (0 : Fin 1)) fun ax => ?_).trans ?_
  · match ax with
    | ⟨0, _⟩ => rfl
    | ⟨1, _⟩ => rfl
    | ⟨2, _⟩ => rfl
  · refine shapeCast_apply x shapeCasts_S16x128_S16x128x1 _ _ ?_
    rw [Shape.rowMajor_val_two, Shape.rowMajor_val_three]
    show bb.val * 128 + n.val = (bb.val * 128 + n.val) * 1 + 0
    rw [Nat.mul_one, Nat.add_zero]

/-- The maximum along the last axis from the accumulator −∞, at row (bb, n): the fold of max from −∞ over the row. -/
theorem rowMaxRed_apply (A : FVec Ideal S16x128x128 .f32) (hφ : FKind.Formats .f32)
    (hacc : (0xFF800000#32 : BitVec 32) = 0xFF800000#32) (bb : Fin 16) (n : Fin 128) :
    multiReduction .maximumf [2] S16x128 A 0xFF800000#32 reduces_S16x128x128_S16x128 hφ hacc (ix2 bb n)
      = (Finset.univ : Finset (Fin 128)).fold max (Ideal.ofBits .f32 0xFF800000#32) (fun j => A (ix3 bb n j)) := by
  refine (Ideal.multiReduction_maximumf_single A 0xFF800000#32 reduces_S16x128x128_S16x128 hφ hacc (ix2 bb n)).trans ?_
  refine Finset.fold_congr fun j _ => congrArg A ?_
  funext a
  exact Fin.ext (by match a with | ⟨0, _⟩ => rfl | ⟨1, _⟩ => rfl | ⟨2, _⟩ => rfl)

/-- The sum along the last axis from the zero accumulator, at row (bb, n): the sum of the row. -/
theorem rowSumRed_apply (A : FVec Ideal S16x128x128 .f32) (hφ : FKind.Formats .f32)
    (hacc : (0x00000000#32 : BitVec 32) = 0x00000000#32) (bb : Fin 16) (n : Fin 128) :
    multiReduction .add [2] S16x128 A 0x00000000#32 reduces_S16x128x128_S16x128 hφ hacc (ix2 bb n)
      = ∑ j : Fin 128, A (ix3 bb n j) := by
  refine (Ideal.multiReduction_add_single A 0x00000000#32 reduces_S16x128x128_S16x128 hφ hacc (ix2 bb n)).trans ?_
  refine Finset.sum_congr rfl fun j _ => congrArg A ?_
  funext a
  exact Fin.ext (by match a with | ⟨0, _⟩ => rfl | ⟨1, _⟩ => rfl | ⟨2, _⟩ => rfl)

/-- The masked, clamped logit from the raw score s and the mask m, entry by entry. -/
theorem clampMask_apply (s m : FVec Ideal S16x128x128 .f32) (i : S16x128x128.Idx) :
    (subf (minimumf (broadcast S16x128x128 (Scalar.ofBits .f32 0x56A3B584#32))
            (maximumf (broadcast S16x128x128 (Scalar.ofBits .f32 0x00000000#32)) (mulf s m)))
          (mulf (broadcast S16x128x128 (Scalar.ofBits .f32 0x59FFCB9E#32))
            (subf (broadcast S16x128x128 (Scalar.ofBits .f32 0x3F800000#32)) m)) : FVec Ideal S16x128x128 .f32) i
      = min (Ideal.ofBits .f32 0x56A3B584#32) (max (Ideal.ofBits .f32 0x00000000#32) (s i * m i))
          - Ideal.ofBits .f32 0x59FFCB9E#32 * (Ideal.ofBits .f32 0x3F800000#32 - m i) := rfl

/-- A [2048, 256] array holding graph bb, node n at row bb * 128 + n, regrouped as [16, 128, 256] (the change of
    format is the identity), reads at (bb, n, d) what the rows hold: here, the batch array X at graph e bb. -/
theorem regroup_apply (e : Fin 16 → Fin 1024) (X : Cert.Spec.Arr3 1024 128 256) (x : FVec Ideal S2048x256 .f32)
    (hx : ∀ (bb : Fin 16) (n : Fin 128) (r : Fin 2048), r.val = bb.val * 128 + n.val → ∀ d : Fin 256,
      x (ix2 r d) = X (ix3 (e bb) n d))
    (bb : Fin 16) (n : Fin 128) (d : Fin 256) :
    (truncf .bf16 (shapeCast S16x128x256 x shapeCasts_S2048x256_S16x128x256) bitsLt_bf16_f32
        : FVec Ideal S16x128x256 .bf16) (ix3 bb n d) = X (ix3 (e bb) n d) :=
  (Cert.LibLayout3.shapeCast_mc_abc_apply x shapeCasts_S2048x256_S16x128x256 bb n d
      ⟨bb.val * 128 + n.val, by have := bb.isLt; have := n.isLt; omega⟩ rfl).trans
    (hx bb n _ rfl d)

/-- The kernel's logits block at (bb, n, j) is the specification's logit of graph e bb. -/
theorem pay6_apply (e : Fin 16 → Fin 1024) (Q Kk : Cert.Spec.Arr3 1024 128 256) (M : Cert.Spec.Arr3 1024 128 128)
    (q2 kp2 : FVec Ideal S2048x256 .f32) (bk : Vec Ideal S256 .f32) (mk : Vec Ideal S16x128x128 .f32)
    (hq : ∀ (bb : Fin 16) (n : Fin 128) (r : Fin 2048), r.val = bb.val * 128 + n.val → ∀ d : Fin 256,
      q2 (ix2 r d) = Q (ix3 (e bb) n d))
    (hk : ∀ (bb : Fin 16) (n : Fin 128) (r : Fin 2048), r.val = bb.val * 128 + n.val → ∀ d : Fin 256,
      max (kp2 (ix2 r d) + bk (ix1 d)) Cert.Spec.zero = Kk (ix3 (e bb) n d))
    (hm : ∀ (bb : Fin 16) (n j : Fin 128), mk (ix3 bb n j) = M (ix3 (e bb) n j))
    (bb : Fin 16) (n j : Fin 128) :
    k0_pay6 (F := Ideal) q2 kp2 bk mk (ix3 bb n j) = Cert.Spec.logits Q Kk M (ix3 (e bb) n j) := by
  unfold k0_pay6
  refine (clampMask_apply _ mk (ix3 bb n j)).trans ?_
  refine Eq.trans ?_ (Cert.Spec.logits_apply Q Kk M (e bb) n j).symm
  refine congrArg₂ (fun s m => min Cert.Spec.clampHi (max Cert.Spec.zero (s * m)) - Cert.Spec.bigNeg * (Cert.Spec.one - m))
    ?_ (hm bb n j)
  refine (qk_apply _ _ bb n j).trans ?_
  refine Finset.sum_congr rfl fun d _ => ?_
  exact congrArg₂ (fun a b => a * b) (regroup_apply e Q q2 hq bb n d)
    (regroup_apply e Kk _ (fun bb' n' r hr d' => (keyAct_apply kp2 bk r d').trans (hk bb' n' r hr d')) bb j d)

/-- The exponential of an array, entry by entry. -/
theorem exp_apply {s : Shape} {φ : FTy} (x : FVec Ideal s φ) (i : s.Idx) : exp x i = Ideal.exp (x i) := rfl

/-- The row maximum as the kernel takes it (folded from −∞, joined with −∞, spread along the row) is the
    specification's row maximum at graph e bb, when the block L agrees there with the batch array A. -/
theorem rowMaxK_apply (e : Fin 16 → Fin 1024) (A : Cert.Spec.Arr3 1024 128 128) (L : FVec Ideal S16x128x128 .f32)
    (hL : ∀ (bb : Fin 16) (n j : Fin 128), L (ix3 bb n j) = A (ix3 (e bb) n j))
    (hφ : FKind.Formats .f32) (hacc : (0xFF800000#32 : BitVec 32) = 0xFF800000#32) (bb : Fin 16) (n j : Fin 128) :
    broadcastTo S16x128x128
        (shapeCast S16x128x1
          (maximumf (broadcast S16x128 (Scalar.ofBits .f32 0xFF800000#32))
            (multiReduction .maximumf [2] S16x128 L 0xFF800000#32 reduces_S16x128x128_S16x128 hφ hacc))
          shapeCasts_S16x128_S16x128x1)
        broadcasts_S16x128x1_S16x128x128 (ix3 bb n j)
      = Cert.Spec.rowMax A (e bb) n := by
  refine (keepdims_apply _ bb n j).trans ?_
  refine (maximumf_apply _ _ _).trans ?_
  show max Cert.Spec.negInf _ = max Cert.Spec.negInf _
  refine congrArg (fun t => max Cert.Spec.negInf t) ?_
  refine (rowMaxRed_apply L hφ hacc bb n).trans ?_
  exact Finset.fold_congr fun j' _ => hL bb n j'

/-- The shifted exponential at (bb, n, j). -/
theorem expShift_apply (e : Fin 16 → Fin 1024) (A : Cert.Spec.Arr3 1024 128 128) (L : FVec Ideal S16x128x128 .f32)
    (hL : ∀ (bb : Fin 16) (n j : Fin 128), L (ix3 bb n j) = A (ix3 (e bb) n j))
    (hφ : FKind.Formats .f32) (hacc : (0xFF800000#32 : BitVec 32) = 0xFF800000#32) (bb : Fin 16) (n j : Fin 128) :
    (exp (subf L
        (broadcastTo S16x128x128
          (shapeCast S16x128x1
            (maximumf (broadcast S16x128 (Scalar.ofBits .f32 0xFF800000#32))
              (multiReduction .maximumf [2] S16x128 L 0xFF800000#32 reduces_S16x128x128_S16x128 hφ hacc))
            shapeCasts_S16x128_S16x128x1)
          broadcasts_S16x128x1_S16x128x128)) : FVec Ideal S16x128x128 .f32) (ix3 bb n j)
      = Ideal.exp (A (ix3 (e bb) n j) - Cert.Spec.rowMax A (e bb) n) := by
  refine (exp_apply _ _).trans ?_
  refine congrArg Ideal.exp ?_
  refine (subf_apply _ _ _).trans ?_
  exact congrArg₂ (fun a b => a - b) (hL bb n j) (rowMaxK_apply e A L hL hφ hacc bb n j)

/-- The row sum as the kernel takes it (summed from the zero accumulator, spread along the row) is the
    specification's row sum at graph e bb, when the block E holds the shifted exponentials of A. -/
theorem rowSumK_apply (e : Fin 16 → Fin 1024) (A : Cert.Spec.Arr3 1024 128 128) (E : FVec Ideal S16x128x128 .f32)
    (hE : ∀ (bb : Fin 16) (n j : Fin 128),
      E (ix3 bb n j) = Ideal.exp (A (ix3 (e bb) n j) - Cert.Spec.rowMax A (e bb) n))
    (hφ : FKind.Formats .f32) (hacc : (0x00000000#32 : BitVec 32) = 0x00000000#32) (bb : Fin 16) (n j : Fin 128) :
    broadcastTo S16x128x128
        (shapeCast S16x128x1
          (multiReduction .add [2] S16x128 E 0x00000000#32 reduces_S16x128x128_S16x128 hφ hacc)
          shapeCasts_S16x128_S16x128x1)
        broadcasts_S16x128x1_S16x128x128 (ix3 bb n j)
      = Cert.Spec.rowSum A (e bb) n := by
  refine (keepdims_apply _ bb n j).trans ?_
  refine (rowSumRed_apply E hφ hacc bb n).trans ?_
  exact Finset.sum_congr rfl fun j' _ => hE bb n j'

/-- The kernel's attended values at (bb, n, c) are the specification's, at graph e bb. -/
theorem pay7_apply (e : Fin 16 → Fin 1024) (Q Kk V : Cert.Spec.Arr3 1024 128 256) (M : Cert.Spec.Arr3 1024 128 128)
    (v2 q2 kp2 : FVec Ideal S2048x256 .f32) (bk : Vec Ideal S256 .f32) (mk : Vec Ideal S16x128x128 .f32)
    (hv : ∀ (bb : Fin 16) (n : Fin 128) (r : Fin 2048), r.val = bb.val * 128 + n.val → ∀ c : Fin 256,
      v2 (ix2 r c) = V (ix3 (e bb) n c))
    (hq : ∀ (bb : Fin 16) (n : Fin 128) (r : Fin 2048), r.val = bb.val * 128 + n.val → ∀ d : Fin 256,
      q2 (ix2 r d) = Q (ix3 (e bb) n d))
    (hk : ∀ (bb : Fin 16) (n : Fin 128) (r : Fin 2048), r.val = bb.val * 128 + n.val → ∀ d : Fin 256,
      max (kp2 (ix2 r d) + bk (ix1 d)) Cert.Spec.zero = Kk (ix3 (e bb) n d))
    (hm : ∀ (bb : Fin 16) (n j : Fin 128), mk (ix3 bb n j) = M (ix3 (e bb) n j))
    (bb : Fin 16) (n : Fin 128) (c : Fin 256) :
    k0_pay7 (F := Ideal) v2 q2 kp2 bk mk (ix3 bb n c)
      = Cert.Spec.attend (Cert.Spec.softmax (Cert.Spec.logits Q Kk M)) V (ix3 (e bb) n c) := by
  have hL := pay6_apply e Q Kk M q2 kp2 bk mk hq hk hm
  unfold k0_pay7
  refine (pv_apply _ _ bb n c).trans ?_
  refine Eq.trans ?_ (Cert.Spec.attend_apply _ V (e bb) n c).symm
  refine Finset.sum_congr rfl fun j _ => ?_
  refine congrArg₂ (fun a b => a * b) ?_ (regroup_apply e V v2 hv bb j c)
  refine Eq.trans ?_ (Cert.Spec.softmax_apply _ (e bb) n j).symm
  refine (truncf_apply (ψ := .bf16) _ bitsLt_bf16_f32 (ix3 bb n j)).trans ?_
  refine (divf_apply _ _ _).trans ?_
  refine congrArg₂ Ideal.div ?_ ?_
  · exact expShift_apply e _ _ hL _ _ bb n j
  · exact rowSumK_apply e _ _ (fun bb' n' j' => expShift_apply e _ _ hL _ _ bb' n' j') _ _ bb n j

end Cert.KAttn

end
-- ==== Proof.KCompose.lean ====
/-
  One grid step of the kernel computes the specification on its sixteen graphs.

  The logits block: the query and key arrays are dense layers of the encoded observations (the key's bias and
  rectifier are applied where the logits are formed), so the block's logits are the specification's.  The value block:
  the attended values of those logits, the action appended, three dense layers and the output layer — each stage
  carries "row bb·128 + n of the kernel's array is node n of graph e bb" to the next.
-/
import proofs.«156557_j56143812493412_2_alg».proof.Proof.KStmt
import proofs.«156557_j56143812493412_2_alg».proof.Proof.KDense
import proofs.«156557_j56143812493412_2_alg».proof.Proof.KDenseTail
import proofs.«156557_j56143812493412_2_alg».proof.Proof.KAttn

noncomputable section

namespace Cert.KCompose

open Cert.KernelIdeal Cert.KernelIdeal.Gen Idealize.ShloMosaic Idealize.ShloMosaic.ValueIdx

theorem block20 : Cert.KStmt.Block20 := by
  intro e X M x0 x1 We be Wk bk Wq bq hx0 hx1 bb n j
  exact Cert.KAttn.pay6_apply e (Cert.Spec.dense (Cert.Spec.dense X We be) Wq bq) (Cert.Spec.dense (Cert.Spec.dense X We be) Wk bk) M
    (k0_pay4 x0 We be Wq bq) (k0_pay5 x0 We be Wk) bk x1
    (fun bb n r hr d => Cert.KDense.pay4_apply e X x0 We be hx0 Wq bq bb n r hr d)
    (fun bb n r hr d => Cert.KDense.pay5_bias_apply e X x0 We be hx0 Wk bk bb n r hr d)
    hx1 bb n j

theorem block19 : Cert.KStmt.Block19 := by
  intro e X M A x0 x1 x2 We be Wv bv Wk bk Wq bq W1 b1 W2 b2 W3 b3 W4 b4 hx0 hx1 hx2 bb n
  refine Cert.KDense.pay1_apply e _ _ W4 b4 (fun bb n r hr h => ?_) bb n
  refine Cert.KDense.pay8_apply e _ A _ x2 W1 b1 W2 b2 W3 b3 (fun bb n c => ?_) hx2 bb n r hr h
  exact Cert.KAttn.pay7_apply e (Cert.Spec.dense (Cert.Spec.dense X We be) Wq bq) (Cert.Spec.dense (Cert.Spec.dense X We be) Wk bk)
    (Cert.Spec.dense (Cert.Spec.dense X We be) Wv bv) M
    (k0_pay3 x0 We be Wv bv) (k0_pay4 x0 We be Wq bq) (k0_pay5 x0 We be Wk) bk x1
    (fun bb n r hr c => Cert.KDense.pay3_apply e X x0 We be hx0 Wv bv bb n r hr c)
    (fun bb n r hr d => Cert.KDense.pay4_apply e X x0 We be hx0 Wq bq bb n r hr d)
    (fun bb n r hr d => Cert.KDense.pay5_bias_apply e X x0 We be hx0 Wk bk bb n r hr d)
    hx1 bb n c

end Cert.KCompose

end
-- ==== Proof.lean ====
/-
  The certificate: the kernel's program and the reference compute the same two arrays at exact arithmetic.

  Both programs are a graph-attention critic (Proof/Spec.lean says it in plain mathematics): the reference on the whole
  batch of 1024 graphs, the kernel sixteen graphs per grid step with every dense layer as one [2048, K] by [K, 256]
  product.  The reference's run ends with its two results at the specification's value and logits (Proof/RefValue.lean
  reads the run back as the stage-by-stage terms of its operations, Proof/RefSpec.lean reads those terms one operation
  at a time); the kernel's run ends with its two result arrays at the same two functions of the arguments (Proof/KBlocks.lean: the 64 blocks tile the arrays and each block is the specification's,
  Proof/KCompose.lean over the body's payloads read at an index in Proof/KDense.lean, KDenseTail.lean and KAttn.lean).
  No algebraic law beyond reading a matrix product and a reduction as the same finite sum is needed, so the finiteness
  precondition is never opened.  The three frames are the generated ones (the reference's is its run with the results
  dropped); the idealization rewrote nothing, so preserves is trivial.
-/
import proofs.«156557_j56143812493412_2_alg».proof.Defs
import proofs.«156557_j56143812493412_2_alg».proof.Proof.Gen.Kernel
import proofs.«156557_j56143812493412_2_alg».proof.Proof.Gen.Kernel.Skeleton
import proofs.«156557_j56143812493412_2_alg».proof.Proof.Gen.Kernel.Launch
import proofs.«156557_j56143812493412_2_alg».proof.Proof.Gen.Kernel.Points
import proofs.«156557_j56143812493412_2_alg».proof.Proof.Gen.Kernel.Frame
import proofs.«156557_j56143812493412_2_alg».proof.Proof.Gen.KernelIdeal
import proofs.«156557_j56143812493412_2_alg».proof.Proof.Gen.KernelIdeal.Skeleton
import proofs.«156557_j56143812493412_2_alg».proof.Proof.Gen.KernelIdeal.Launch
import proofs.«156557_j56143812493412_2_alg».proof.Proof.Gen.KernelIdeal.Points
import proofs.«156557_j56143812493412_2_alg».proof.Proof.Gen.KernelIdeal.Frame
import proofs.«156557_j56143812493412_2_alg».proof.Proof.Gen.ReferenceIdeal
import proofs.«156557_j56143812493412_2_alg».proof.Proof.Gen.Pre_finite_inputs
import proofs.«156557_j56143812493412_2_alg».proof.Proof.RefRun
import proofs.«156557_j56143812493412_2_alg».proof.Proof.RefRead
import proofs.«156557_j56143812493412_2_alg».proof.Proof.RefValue
import proofs.«156557_j56143812493412_2_alg».proof.Proof.RefSpec
import proofs.«156557_j56143812493412_2_alg».proof.Proof.KBlocks
import proofs.«156557_j56143812493412_2_alg».proof.Proof.KCompose
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.RefValue.run (F := Ideal) m ρ)

theorem preserves : Cert.preserves_Kernel_KernelIdeal := trivial

/-- Both runs end with the value result at the specification's value and the logits result at the specification's logits
    of the (agreeing) arguments. -/
theorem algebraic : Cert.algebraic_KernelIdeal_ReferenceIdeal := by
  intro m ρ m' ρ' _ hagree
  refine ⟨_, _, Cert.KValue.run m ρ Cert.KCompose.block19 Cert.KCompose.block20, ?_⟩
  refine (θ_run Cert.ReferenceIdeal.defs _ _).mono (fun _ h c => ⟨(h c).1.trans ?_, (h c).2.1.trans ?_, (h c).2.2⟩)
    (Cert.RefValue.run (F := Ideal) m' ρ')
  · obtain ⟨h0, h1, h2, h3, h4, h5, h6, h7, h8, h9, h10, h11, h12, h13, h14, h15, h16, h17, h18⟩ := hagree c
    rw [Cert.RefSpec.value_eq, h0, h1, h2, h3, h4, h5, h6, h7, h8, h9, h10, h11, h12, h13, h14, h15, h16, h17, h18]
  · obtain ⟨h0, h1, h2, h3, h4, h5, h6, h7, h8, h9, h10, h11, h12, h13, h14, h15, h16, h17, h18⟩ := hagree c
    rw [Cert.RefSpec.aw_eq, h0, h1, h3, h4, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
